-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048 : Shape := ⟨2, ![16, 2048]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x2048x1024 .f32) (main_arg1 : IVec S16x2048 32) (main_arg2 : FVec F S16x2048x1024 .f32) (main_arg3 : FVec F S1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg2
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x2048x1024 : Shape := ⟨3, ![16, 2048, 1024]⟩
abbrev S16x2048 : Shape := ⟨2, ![16, 2048]⟩
abbrev S1024x1024 : Shape := ⟨2, ![1024, 1024]⟩
abbrev S16x1x2048 : Shape := ⟨3, ![16, 1, 2048]⟩
abbrev S1x1024x1024 : Shape := ⟨3, ![1, 1024, 1024]⟩
abbrev S1x512x1024 : Shape := ⟨3, ![1, 512, 1024]⟩
abbrev S1x1x512 : Shape := ⟨3, ![1, 1, 512]⟩
abbrev S1024x1 : Shape := ⟨2, ![1024, 1]⟩
abbrev S512x1024 : Shape := ⟨2, ![512, 1024]⟩
abbrev S1024x512 : Shape := ⟨2, ![1024, 512]⟩
abbrev S1x512 : Shape := ⟨2, ![1, 512]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S16x2048x1024, .f32⟩
  | .hbm, ⟨3, _⟩ => ⟨S1024x1024, .f32⟩
  | .hbm, ⟨4, _⟩ => ⟨S16x1x2048, .i32⟩
  | .hbm, ⟨5, _⟩ => ⟨S16x2048x1024, .bf16⟩
  | .hbm, ⟨6, _⟩ => ⟨S16x2048x1024, .bf16⟩
  | .hbm, ⟨7, _⟩ => ⟨S1024x1024, .f32⟩
  | .hbm, ⟨8, _⟩ => ⟨S1024x1024, .bf16⟩
  | .hbm, ⟨9, _⟩ => ⟨S16x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x1x512, .i32⟩
  | .local _ .vmem, ⟨6, _⟩ => ⟨S1x1x512, .i32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x1, .f32⟩
  | .local _ .vmem, ⟨11, _⟩ => ⟨S1024x1, .f32⟩
  | .local _ .vmem, ⟨12, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_26 : BitVec 32 := 0#32
  let v49 : BitVec 1 := Scalar.cmpi .ne v48 c0_i32_26
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S16x2048_S16x1x2048 : S16x2048.ShapeCasts S16x1x2048
  bitsLt_bf16_f32 : FTy.bits .bf16 < FTy.bits .f32
  transposes_S1024x1024_S1024x1024_1_0 : S1024x1024.Transposes [1, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .bf16 = 32 ∨ (Rect.block (s := S16x2048x1024) S1x1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x2048x1024.size a
  hwx0_2 : ∀ i : grid0.Coords, EltTy.bits .bf16 = 32 ∨ (Rect.block (s := S16x2048x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x2048.size a
  hwx0_3 : ∀ i : grid0.Coords, EltTy.bits .i32 = 32 ∨ (Rect.block (s := S16x1x2048) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x2048x1024.size a
  hwx0_4 : ∀ i : grid0.Coords, EltTy.bits .f32 = 32 ∨ (Rect.block (s := S16x2048x1024) S1x1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048x1024 : Shape := ⟨3, ![16, 2048, 1024]⟩
abbrev S16x2048 : Shape := ⟨2, ![16, 2048]⟩
abbrev S1024x1024 : Shape := ⟨2, ![1024, 1024]⟩
abbrev S16x2048x2048 : Shape := ⟨3, ![16, 2048, 2048]⟩
abbrev S_ : Shape := ⟨0, ![]⟩
abbrev S16x1x2048 : Shape := ⟨3, ![16, 1, 2048]⟩
abbrev S16x2048x1 : Shape := ⟨3, ![16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S16x2048x1024, .f32⟩
  | .hbm, ⟨3, _⟩ => ⟨S1024x1024, .f32⟩
  | .hbm, ⟨4, _⟩ => ⟨S16x2048x1024, .f32⟩
  | .hbm, ⟨5, _⟩ => ⟨S16x2048x2048, .f32⟩
  | .hbm, ⟨6, _⟩ => ⟨S_, .i32⟩
  | .hbm, ⟨7, _⟩ => ⟨S16x2048, .i32⟩
  | .hbm, ⟨8, _⟩ => ⟨S16x2048, .i32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x1x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Pieces.lean ====
import proofs.«155391_j3633542333230_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-!
  What one grid point leaves in the four carried scratch buffers (the projected query tile, the running maximum,
  the running normaliser, the running weighted sum) and, at the last key/value tile, in the output block — each as
  the body's arithmetic applied to the point's input blocks and to what the point before left.  Three kinds of
  point: the first key/value tile of a query tile (the scratch is reset, then updated), a middle tile (updated), the
  last tile (updated, then the quotient is stored).
-/
namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First key/value tile: reset, then one update -/

theorem first_query (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i) (x0 : Vec F S1x1024x1024 .bf16) (x1 : Vec F S1024x1024 .bf16) (x2 : Vec F S1x512x1024 .bf16) (x3 : Vec F S1x1x512 .i32)  :
    sout0_A_0 c i arg3 harg3 arg4 harg4 arg5 harg5 arg6 harg6 arg7 harg7 arg8 harg8 arg9 harg9 arg10 harg10 arg11 harg11 hc0 hc1 x0 x1 x2 x3  = k0_pay5 x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem first_max (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i) (x0 : Vec F S1x1024x1024 .bf16) (x1 : Vec F S1024x1024 .bf16) (x2 : Vec F S1x512x1024 .bf16) (x3 : Vec F S1x1x512 .i32)  :
    sout0_A_1 c i arg3 harg3 arg4 harg4 arg5 harg5 arg6 harg6 arg7 harg7 arg8 harg8 arg9 harg9 arg10 harg10 arg11 harg11 hc0 hc1 x0 x1 x2 x3  = k0_pay3 (k0_pay11 (k0_pay5 x0 x1) x2 x3 k0_pay6) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem first_norm (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i) (x0 : Vec F S1x1024x1024 .bf16) (x1 : Vec F S1024x1024 .bf16) (x2 : Vec F S1x512x1024 .bf16) (x3 : Vec F S1x1x512 .i32)  :
    sout0_A_2 c i arg3 harg3 arg4 harg4 arg5 harg5 arg6 harg6 arg7 harg7 arg8 harg8 arg9 harg9 arg10 harg10 arg11 harg11 hc0 hc1 x0 x1 x2 x3  = k0_pay1 (k0_pay14 (k0_pay5 x0 x1) x2 x3 k0_pay6 k0_pay6 k0_pay7) := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem first_acc (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i) (x0 : Vec F S1x1024x1024 .bf16) (x1 : Vec F S1024x1024 .bf16) (x2 : Vec F S1x512x1024 .bf16) (x3 : Vec F S1x1x512 .i32)  :
    sout0_A_3 c i arg3 harg3 arg4 harg4 arg5 harg5 arg6 harg6 arg7 harg7 arg8 harg8 arg9 harg9 arg10 harg10 arg11 harg11 hc0 hc1 x0 x1 x2 x3  = k0_pay2 (k0_pay9 x2) (k0_pay12 (k0_pay5 x0 x1) x2 x3 k0_pay6 k0_pay6) (k0_pay13 (k0_pay5 x0 x1) x2 x3 k0_pay6) k0_pay8 := by
  unfold sout0_A_3
  rw [View.read_writes_eq_canon _ _ _ (scover0_A_3 c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_cons_unit_zero (S := S1024x1024) hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

/-! ## A middle tile: one update over what the point before left -/

theorem mid_max (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i) (x0 : Vec F S1x1024x1024 .bf16) (x1 : Vec F S1024x1024 .bf16) (x2 : Vec F S1x512x1024 .bf16) (x3 : Vec F S1x1x512 .i32) (xs0 : Vec F S1024x1024 .bf16) (xs1 : Vec F S1024x1 .f32) (xs2 : Vec F S1024x1 .f32) (xs3 : Vec F S1024x1024 .f32) :
    sout0_B_1 c i arg3 harg3 arg4 harg4 arg5 harg5 arg6 harg6 arg7 harg7 arg8 harg8 arg9 harg9 arg10 harg10 arg11 harg11 hc0 hc1 x0 x1 x2 x3 xs0 xs1 xs2 xs3 = k0_pay3 (k0_pay11 xs0 x2 x3 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem mid_norm (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i) (x0 : Vec F S1x1024x1024 .bf16) (x1 : Vec F S1024x1024 .bf16) (x2 : Vec F S1x512x1024 .bf16) (x3 : Vec F S1x1x512 .i32) (xs0 : Vec F S1024x1024 .bf16) (xs1 : Vec F S1024x1 .f32) (xs2 : Vec F S1024x1 .f32) (xs3 : Vec F S1024x1024 .f32) :
    sout0_B_2 c i arg3 harg3 arg4 harg4 arg5 harg5 arg6 harg6 arg7 harg7 arg8 harg8 arg9 harg9 arg10 harg10 arg11 harg11 hc0 hc1 x0 x1 x2 x3 xs0 xs1 xs2 xs3 = k0_pay1 (k0_pay14 xs0 x2 x3 xs1 xs1 xs2) := by
  unfold sout0_B_2
  rw [View.read_writes_eq_canon _ _ _ (scover0_B_2 c i arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem mid_acc (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i) (x0 : Vec F S1x1024x1024 .bf16) (x1 : Vec F S1024x1024 .bf16) (x2 : Vec F S1x512x1024 .bf16) (x3 : Vec F S1x1x512 .i32) (xs0 : Vec F S1024x1024 .bf16) (xs1 : Vec F S1024x1 .f32) (xs2 : Vec F S1024x1 .f32) (xs3 : Vec F S1024x1024 .f32) :
    sout0_B_3 c i arg3 harg3 arg4 harg4 arg5 harg5 arg6 harg6 arg7 harg7 arg8 harg8 arg9 harg9 arg10 harg10 arg11 harg11 hc0 hc1 x0 x1 x2 x3 xs0 xs1 xs2 xs3 = k0_pay2 (k0_pay9 x2) (k0_pay12 xs0 x2 x3 xs1 xs1) (k0_pay13 xs0 x2 x3 xs1) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

/-! ## The last tile: one update, then the quotient stored into the output block -/

theorem last_max (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .bf16) (x1 : Vec F S1024x1024 .bf16) (x2 : Vec F S1x512x1024 .bf16) (x3 : Vec F S1x1x512 .i32) (xs0 : Vec F S1024x1024 .bf16) (xs1 : Vec F S1024x1 .f32) (xs2 : Vec F S1024x1 .f32) (xs3 : Vec F S1024x1024 .f32) :
    sout0_C_1 c i arg3 harg3 arg4 harg4 arg5 harg5 arg6 harg6 arg7 harg7 arg8 harg8 arg9 harg9 arg10 harg10 arg11 harg11 hc0 hc1 x0 x1 x2 x3 xs0 xs1 xs2 xs3 = k0_pay3 (k0_pay11 xs0 x2 x3 xs1) := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem last_norm (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .bf16) (x1 : Vec F S1024x1024 .bf16) (x2 : Vec F S1x512x1024 .bf16) (x3 : Vec F S1x1x512 .i32) (xs0 : Vec F S1024x1024 .bf16) (xs1 : Vec F S1024x1 .f32) (xs2 : Vec F S1024x1 .f32) (xs3 : Vec F S1024x1024 .f32) :
    sout0_C_2 c i arg3 harg3 arg4 harg4 arg5 harg5 arg6 harg6 arg7 harg7 arg8 harg8 arg9 harg9 arg10 harg10 arg11 harg11 hc0 hc1 x0 x1 x2 x3 xs0 xs1 xs2 xs3 = k0_pay1 (k0_pay14 xs0 x2 x3 xs1 xs1 xs2) := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem last_acc (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .bf16) (x1 : Vec F S1024x1024 .bf16) (x2 : Vec F S1x512x1024 .bf16) (x3 : Vec F S1x1x512 .i32) (xs0 : Vec F S1024x1024 .bf16) (xs1 : Vec F S1024x1 .f32) (xs2 : Vec F S1024x1 .f32) (xs3 : Vec F S1024x1024 .f32) :
    sout0_C_3 c i arg3 harg3 arg4 harg4 arg5 harg5 arg6 harg6 arg7 harg7 arg8 harg8 arg9 harg9 arg10 harg10 arg11 harg11 hc0 hc1 x0 x1 x2 x3 xs0 xs1 xs2 xs3 = k0_pay2 (k0_pay9 x2) (k0_pay12 xs0 x2 x3 xs1 xs1) (k0_pay13 xs0 x2 x3 xs1) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

theorem last_out (c : Dev nD) (i : grid0.Coords) (arg3 : Memref sig .tc .vmem S1x1024x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x1x512 .i32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .bf16) (x1 : Vec F S1024x1024 .bf16) (x2 : Vec F S1x512x1024 .bf16) (x3 : Vec F S1x1x512 .i32) (xs0 : Vec F S1024x1024 .bf16) (xs1 : Vec F S1024x1 .f32) (xs2 : Vec F S1024x1 .f32) (xs3 : Vec F S1024x1024 .f32) :
    out0_C_4 c i arg3 harg3 arg4 harg4 arg5 harg5 arg6 harg6 arg7 harg7 arg8 harg8 arg9 harg9 arg10 harg10 arg11 harg11 hc0 hc1 x0 x1 x2 x3 xs0 xs1 xs2 xs3 = k0_pay4 (k0_pay2 (k0_pay9 x2) (k0_pay12 xs0 x2 x3 xs1 xs1) (k0_pay13 xs0 x2 x3 xs1) xs3) (k0_pay1 (k0_pay14 xs0 x2 x3 xs1 xs1 xs2)) := by
  unfold out0_C_4
  rw [View.read_writes_eq_canon _ _ _ (cover0_C_4 c i arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz3]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x512x1024) hz3, View.ld_unit_zero (S := S1x1x512) hz3, View.ld_unit_zero (S := S1x1024x1024) hz3, View.readCov_unit_zero (S := S1024x1) _ hz2, View.readCov_unit_zero (S := S1024x1024) _ hz2]

end Cert.KernelIdeal.Pieces
end
-- ==== Proof.Steps.lean ====
/-
  What the carried scratch buffers (and, at a query tile's last key/value tile, the output block) hold after each grid
  point, as the body's arithmetic over the point's input blocks and over what the point before left — the three
  kinds of point, read off the run of the grid.
-/
import proofs.«155391_j3633542333230_2_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ) (c : Dev nD)

/-- What the point before `t` left (for the first point of all: itself, never consulted). -/
abbrev prev (t : Fin cfg0.N) :=
  outsAt0 m c (t.val - 1) (Nat.lt_of_le_of_lt (Nat.sub_le _ _) t.isLt)

/-! ## First key/value tile of a query tile -/

/-- The projected query tile. -/
theorem first_query (t : Fin cfg0.N) (h0 : t.val % 4 = 0) (h1 : ¬t.val % 4 = 3) :
    (outsAt0 m c t.val t.isLt).2.1 = (k0_pay5 (iblk m c 0 t) (iblk m c 1 t)) := by
  simp only [outsAt0_A m c t h0 h1]
  exact Pieces.first_query (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- The running maximum, from the reset value. -/
theorem first_max (t : Fin cfg0.N) (h0 : t.val % 4 = 0) (h1 : ¬t.val % 4 = 3) :
    (outsAt0 m c t.val t.isLt).2.2.1 = k0_pay3 (k0_pay11 (k0_pay5 (iblk m c 0 t) (iblk m c 1 t)) (iblk m c 2 t) (iblk m c 3 t) k0_pay6) := by
  simp only [outsAt0_A m c t h0 h1]
  exact Pieces.first_max (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- The normaliser, from the reset values. -/
theorem first_norm (t : Fin cfg0.N) (h0 : t.val % 4 = 0) (h1 : ¬t.val % 4 = 3) :
    (outsAt0 m c t.val t.isLt).2.2.2.1 = k0_pay1 (k0_pay14 (k0_pay5 (iblk m c 0 t) (iblk m c 1 t)) (iblk m c 2 t) (iblk m c 3 t) k0_pay6 k0_pay6 k0_pay7) := by
  simp only [outsAt0_A m c t h0 h1]
  exact Pieces.first_norm (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- The weighted sum, from the reset values. -/
theorem first_acc (t : Fin cfg0.N) (h0 : t.val % 4 = 0) (h1 : ¬t.val % 4 = 3) :
    (outsAt0 m c t.val t.isLt).2.2.2.2 = k0_pay2 (k0_pay9 (iblk m c 2 t)) (k0_pay12 (k0_pay5 (iblk m c 0 t) (iblk m c 1 t)) (iblk m c 2 t) (iblk m c 3 t) k0_pay6 k0_pay6) (k0_pay13 (k0_pay5 (iblk m c 0 t) (iblk m c 1 t)) (iblk m c 2 t) (iblk m c 3 t) k0_pay6) k0_pay8 := by
  simp only [outsAt0_A m c t h0 h1]
  exact Pieces.first_acc (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-! ## A middle tile -/

/-- The projected query tile is carried unchanged. -/
theorem mid_query (t : Fin cfg0.N) (h0 : ¬t.val % 4 = 0) (h1 : ¬t.val % 4 = 3) : (outsAt0 m c t.val t.isLt).2.1 = (prev m c t).2.1 := by
  simp only [outsAt0_B m c t h0 h1]
  rfl

/-- The running maximum. -/
theorem mid_max (t : Fin cfg0.N) (h0 : ¬t.val % 4 = 0) (h1 : ¬t.val % 4 = 3) :
    (outsAt0 m c t.val t.isLt).2.2.1 = k0_pay3 (k0_pay11 (prev m c t).2.1 (iblk m c 2 t) (iblk m c 3 t) (prev m c t).2.2.1) := by
  simp only [outsAt0_B m c t h0 h1]
  exact Pieces.mid_max (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2

/-- The normaliser. -/
theorem mid_norm (t : Fin cfg0.N) (h0 : ¬t.val % 4 = 0) (h1 : ¬t.val % 4 = 3) :
    (outsAt0 m c t.val t.isLt).2.2.2.1 = k0_pay1 (k0_pay14 (prev m c t).2.1 (iblk m c 2 t) (iblk m c 3 t) (prev m c t).2.2.1 (prev m c t).2.2.1 (prev m c t).2.2.2.1) := by
  simp only [outsAt0_B m c t h0 h1]
  exact Pieces.mid_norm (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2

/-- The weighted sum. -/
theorem mid_acc (t : Fin cfg0.N) (h0 : ¬t.val % 4 = 0) (h1 : ¬t.val % 4 = 3) :
    (outsAt0 m c t.val t.isLt).2.2.2.2 = k0_pay2 (k0_pay9 (iblk m c 2 t)) (k0_pay12 (prev m c t).2.1 (iblk m c 2 t) (iblk m c 3 t) (prev m c t).2.2.1 (prev m c t).2.2.1) (k0_pay13 (prev m c t).2.1 (iblk m c 2 t) (iblk m c 3 t) (prev m c t).2.2.1) (prev m c t).2.2.2.2 := by
  simp only [outsAt0_B m c t h0 h1]
  exact Pieces.mid_acc (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2.1 (prev m c t).2.2.2.2

/-! ## The last tile -/

/-- The output block: the new weighted sum over the new normaliser. -/
theorem last_out (t : Fin cfg0.N) (h0 : ¬t.val % 4 = 0) (h1 : t.val % 4 = 3) :
    (outsAt0 m c t.val t.isLt).1 = k0_pay4 (k0_pay2 (k0_pay9 (iblk m c 2 t)) (k0_pay12 (prev m c t).2.1 (iblk m c 2 t) (iblk m c 3 t) (prev m c t).2.2.1 (prev m c t).2.2.1) (k0_pay13 (prev m c t).2.1 (iblk m c 2 t) (iblk m c 3 t) (prev m c t).2.2.1) (prev m c t).2.2.2.2) (k0_pay1 (k0_pay14 (prev m c t).2.1 (iblk m c 2 t) (iblk m c 3 t) (prev m c t).2.2.1 (prev m c t).2.2.1 (prev m c t).2.2.2.1)) := by
  simp only [outsAt0_C m c t h0 h1]
  exact Pieces.last_out (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2.1 (prev m c t).2.2.2.2

end Cert.KernelIdeal.Steps
end
-- ==== Proof.TileArith.lean ====
/-
  The body's arithmetic for one key/value tile, read entry by entry over the extended reals: the projected query
  tile (a matrix product), the masked scores of the tile (a matrix product against the transposed value tile plus
  the mask term of each key), the new running maximum, the rescaling factor, the tile's exponentials, the new
  normaliser, the new weighted sum (a rescaling plus a matrix product), and the final quotient.
-/
import proofs.«155391_j3633542333230_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Tile

open Cert.KernelIdeal Cert.KernelIdeal.Gen

variable {α : Type}

/-! ## Column layouts -/

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three matrix products -/

theorem proj_apply_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem proj_apply_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A matrix product into a zero accumulator, read at `(p, q)`: the sum over the contracted coordinate. -/
theorem proj_apply (l : FVec Ideal S1024x1024 .bf16) (r : FVec Ideal S1024x1024 .bf16) (p : Fin 1024) (q : Fin 1024) :
    matmul dot_S1024x1024_S1024x1024_S1024x1024_1_0_0_1_n_n none l r (constant (F := Ideal) S1024x1024 .f32 0x00000000#32) (ix2 p q)
      = ∑ k : Fin 1024, l (ix2 p k) * r (ix2 k q) := by
  show FloatOps.matmul dot_S1024x1024_S1024x1024_S1024x1024_1_0_0_1_n_n none l r (constant (F := Ideal) S1024x1024 .f32 0x00000000#32) (ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact proj_apply_lhs0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact proj_apply_rhs1 _ _)
  rw [el, er]

theorem qk_apply_lhs0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem qk_apply_rhs1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- A matrix product into a zero accumulator, read at `(p, q)`: the sum over the contracted coordinate. -/
theorem qk_apply (l : FVec Ideal S1024x1024 .bf16) (r : FVec Ideal S1024x512 .bf16) (p : Fin 1024) (q : Fin 512) :
    matmul dot_S1024x1024_S1024x512_S1024x512_1_0_0_1_n_n none l r (constant (F := Ideal) S1024x512 .f32 0x00000000#32) (ix2 p q)
      = ∑ k : Fin 1024, l (ix2 p k) * r (ix2 k q) := by
  show FloatOps.matmul dot_S1024x1024_S1024x512_S1024x512_1_0_0_1_n_n none l r (constant (F := Ideal) S1024x512 .f32 0x00000000#32) (ix2 p q) = _
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact qk_apply_lhs0 _ _
    | ⟨1, _⟩ => exact (dot_S1024x1024_S1024x512_S1024x512_1_0_0_1_n_n.lhsIdx_val_of_single rfl _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (dot_S1024x1024_S1024x512_S1024x512_1_0_0_1_n_n.rhsIdx_val_of_single rfl _ _).trans hk
    | ⟨1, _⟩ => exact qk_apply_rhs1 _ _)
  rw [el, er]

theorem pv_apply_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem pv_apply_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A matrix product into a zero accumulator, read at `(p, q)`: the sum over the contracted coordinate. -/
theorem pv_apply (l : FVec Ideal S1024x512 .bf16) (r : FVec Ideal S512x1024 .bf16) (p : Fin 1024) (q : Fin 1024) :
    matmul dot_S1024x512_S512x1024_S1024x1024_1_0_0_1_n_n none l r (constant (F := Ideal) S1024x1024 .f32 0x00000000#32) (ix2 p q)
      = ∑ k : Fin 512, l (ix2 p k) * r (ix2 k q) := by
  show FloatOps.matmul dot_S1024x512_S512x1024_S1024x1024_1_0_0_1_n_n none l r (constant (F := Ideal) S1024x1024 .f32 0x00000000#32) (ix2 p q) = _
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact pv_apply_lhs0 _ _
    | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (dot_S1024x512_S512x1024_S1024x1024_1_0_0_1_n_n.rhsIdx_val_of_single rfl _ _).trans hk
    | ⟨1, _⟩ => exact pv_apply_rhs1 _ _)
  rw [el, er]

/-! ## The payloads, entry by entry -/

/-- The projected query tile: row `r` of the key block against column `e` of the (transposed) weight. -/
theorem query_apply (kb : FVec Ideal S1x1024x1024 .bf16) (w : FVec Ideal S1024x1024 .bf16) (r e : Fin 1024) :
    k0_pay5 (F := Ideal) kb w (ix2 r e) = ∑ d : Fin 1024, kb (ix3 (0 : Fin 1) r d) * w (ix2 d e) := by
  unfold k0_pay5
  rw [shapeCast_self]
  refine (proj_apply _ _ r e).trans (Finset.sum_congr rfl fun d _ => ?_)
  rw [shapeCast_1ab_ab_apply, shapeCast_self]

/-- The value tile with its unit axis dropped. -/
theorem vtile_apply (vb : FVec Ideal S1x512x1024 .bf16) (c : Fin 512) (e : Fin 1024) :
    k0_pay9 (F := Ideal) vb (ix2 c e) = vb (ix3 (0 : Fin 1) c e) := by
  unfold k0_pay9
  exact shapeCast_1ab_ab_apply _ _ c e

/-- The masked scores of the tile: query row `r` against value row `c`, plus the mask term of key `c`. -/
theorem scores_apply (q : FVec Ideal S1024x1024 .bf16) (vb : FVec Ideal S1x512x1024 .bf16) (mk : Vec Ideal S1x1x512 .i32) (r : Fin 1024) (c : Fin 512) :
    k0_pay10 (F := Ideal) q vb mk (ix2 r c)
      = (∑ d : Fin 1024, q (ix2 r d) * vb (ix3 (0 : Fin 1) c d))
        + (((1#32 - mk (ix3 (0 : Fin 1) (0 : Fin 1) c)).toInt : ℝ) : EReal) * Ideal.ofBits .f32 0xF149F2CA#32 := by
  unfold k0_pay10 k0_pay9
  try dsimp only
  rw [addf_apply, broadcastTo_1b_ab_apply, mulf_apply, sitofp_apply, broadcast_apply]
  refine congrArg₂ (· + ·) ?_ ?_
  · refine (qk_apply _ _ r c).trans (Finset.sum_congr rfl fun d _ => ?_)
    rw [transpose_ix2_apply, shapeCast_1ab_ab_apply]
  · show (((1#32 - shapeCast S1x512 mk shapeCasts_S1x1x512_S1x512 (ix2 (0 : Fin 1) c)).toInt : ℝ) : EReal) * _ = _
    rw [shapeCast_1ab_ab_apply]
    rfl

/-- The new running maximum of row `r`: the old one against the maximum of the tile's scores (from `-∞`). -/
theorem newmax_apply (q : FVec Ideal S1024x1024 .bf16) (vb : FVec Ideal S1x512x1024 .bf16) (mk : Vec Ideal S1x1x512 .i32) (mo : FVec Ideal S1024x1 .f32) (r : Fin 1024) :
    k0_pay11 (F := Ideal) q vb mk mo (ix2 r (0 : Fin 1))
      = max (mo (ix2 r (0 : Fin 1))) ((Finset.univ : Finset (Fin 512)).fold max (Ideal.ofBits .f32 0xFF800000#32)
          (fun c => k0_pay10 (F := Ideal) q vb mk (ix2 r c))) := by
  unfold k0_pay11
  try dsimp only
  rw [maximumf_apply, shapeCast_a_a1_apply]
  refine congrArg (max _) ?_
  refine (Ideal.multiReduction_maximumf_single (k0_pay10 (F := Ideal) q vb mk) 0xFF800000#32 reduces_S1024x512_S1024 (.inl rfl) rfl (ix1 r)).trans ?_
  refine Finset.fold_congr fun k _ => ?_
  exact congrArg (k0_pay10 (F := Ideal) q vb mk) (funext fun a => Fin.ext (by match a with | ⟨0, _⟩ => rfl | ⟨1, _⟩ => rfl))

/-- The rescaling factor of row `r`: `e^{old maximum - new maximum}`. -/
theorem rescale_apply (q : FVec Ideal S1024x1024 .bf16) (vb : FVec Ideal S1x512x1024 .bf16) (mk : Vec Ideal S1x1x512 .i32) (mo mo' : FVec Ideal S1024x1 .f32) (r : Fin 1024) :
    k0_pay12 (F := Ideal) q vb mk mo mo' (ix2 r (0 : Fin 1))
      = Ideal.exp (mo' (ix2 r (0 : Fin 1)) - k0_pay11 (F := Ideal) q vb mk mo (ix2 r (0 : Fin 1))) := by
  unfold k0_pay12
  rfl

/-- The tile's exponentials: `e^{score - new maximum of the row}`. -/
theorem expo_apply (q : FVec Ideal S1024x1024 .bf16) (vb : FVec Ideal S1x512x1024 .bf16) (mk : Vec Ideal S1x1x512 .i32) (mo : FVec Ideal S1024x1 .f32) (r : Fin 1024) (c : Fin 512) :
    k0_pay13 (F := Ideal) q vb mk mo (ix2 r c)
      = Ideal.exp (k0_pay10 (F := Ideal) q vb mk (ix2 r c) - k0_pay11 (F := Ideal) q vb mk mo (ix2 r (0 : Fin 1))) := by
  unfold k0_pay13
  try dsimp only
  show Ideal.exp (_ - broadcastTo S1024x512 (k0_pay11 (F := Ideal) q vb mk mo) broadcasts_S1024x1_S1024x512 (ix2 r c)) = _
  rw [broadcastTo_a1_ab_apply]

/-- The new normaliser of row `r`: the old one rescaled, plus the sum of the tile's exponentials. -/
theorem newnorm_apply (q : FVec Ideal S1024x1024 .bf16) (vb : FVec Ideal S1x512x1024 .bf16) (mk : Vec Ideal S1x1x512 .i32) (mo mo' lo : FVec Ideal S1024x1 .f32) (r : Fin 1024) :
    k0_pay14 (F := Ideal) q vb mk mo mo' lo (ix2 r (0 : Fin 1))
      = k0_pay12 (F := Ideal) q vb mk mo mo' (ix2 r (0 : Fin 1)) * lo (ix2 r (0 : Fin 1))
        + ∑ c : Fin 512, k0_pay13 (F := Ideal) q vb mk mo (ix2 r c) := by
  unfold k0_pay14
  try dsimp only
  rw [addf_apply, mulf_apply, shapeCast_a_a1_apply]
  refine congrArg₂ (· + ·) rfl ?_
  refine (Ideal.multiReduction_add_single (k0_pay13 (F := Ideal) q vb mk mo) 0x00000000#32 reduces_S1024x512_S1024 (.inl rfl) rfl (ix1 r)).trans ?_
  refine Finset.sum_congr rfl fun k _ => ?_
  exact congrArg (k0_pay13 (F := Ideal) q vb mk mo) (funext fun a => Fin.ext (by match a with | ⟨0, _⟩ => rfl | ⟨1, _⟩ => rfl))

/-- The new weighted sum at `(r, e)`: the old one rescaled by the row's factor, plus the tile's exponentials
    against column `e` of the value tile. -/
theorem newacc_apply (v : FVec Ideal S512x1024 .bf16) (a : FVec Ideal S1024x1 .f32) (p : FVec Ideal S1024x512 .f32)
    (ao : FVec Ideal S1024x1024 .f32) (r e : Fin 1024) :
    k0_pay2 (F := Ideal) v a p ao (ix2 r e)
      = a (ix2 r (0 : Fin 1)) * ao (ix2 r e) + ∑ c : Fin 512, p (ix2 r c) * v (ix2 c e) := by
  unfold k0_pay2
  try dsimp only
  rw [shapeCast_self, addf_apply, mulf_apply, broadcastTo_a1_ab_apply]
  exact congrArg₂ (· + ·) rfl (pv_apply _ _ r e)

/-- The stored quotient at `(r, e)`: the weighted sum over the row's normaliser. -/
theorem quot_apply (acc : FVec Ideal S1024x1024 .f32) (l : FVec Ideal S1024x1 .f32) (u : Fin 1) (r e : Fin 1024) :
    k0_pay4 (F := Ideal) acc l (ix3 u r e) = Ideal.div (acc (ix2 r e)) (l (ix2 r (0 : Fin 1))) := by
  unfold k0_pay4
  try dsimp only
  rw [shapeCast_ab_1ab_apply, divf_apply, broadcastTo_a1_ab_apply]

theorem pay1_eq (v : FVec Ideal S1024x1 .f32) : k0_pay1 (F := Ideal) v = v := by
  unfold k0_pay1; exact shapeCast_self _ _

theorem pay3_eq (v : FVec Ideal S1024x1 .f32) : k0_pay3 (F := Ideal) v = v := by
  unfold k0_pay3; exact shapeCast_self _ _

/-- The reset values: `-∞` for the running maximum, zero for the normaliser and the weighted sum. -/
theorem pay6_apply (i : S1024x1.Idx) : k0_pay6 (F := Ideal) i = ⊥ := by
  unfold k0_pay6
  rw [shapeCast_self]
  show Ideal.ofBits .f32 0xFF800000#32 = ⊥
  simp [Ideal.ofBits, Ideal.ieee]

theorem pay7_apply (i : S1024x1.Idx) : k0_pay7 (F := Ideal) i = 0 := by
  unfold k0_pay7
  rw [shapeCast_self]
  exact Ideal.ofBits_zero_f32

theorem pay8_apply (i : S1024x1024.Idx) : k0_pay8 (F := Ideal) i = 0 := by
  unfold k0_pay8
  rw [shapeCast_self]
  exact Ideal.ofBits_zero_f32

end Cert.KernelIdeal.Tile
end
-- ==== Proof.OnlineSoftmax.lean ====
/-
  Streaming softmax over the real numbers.

  A softmax-weighted sum  ∑ₙ (e^{xₙ - M} / ∑ₖ e^{xₖ - M}) · Vₙ  does not depend on the shift M.  A streaming
  pass visits the index set tile by tile, carrying a shift mⱼ (any real numbers), the normaliser
  lⱼ = ∑_{tiles ≤ j} e^{x - mⱼ} and the weighted sum aⱼ = ∑_{tiles ≤ j} e^{x - mⱼ} · V, each step rescaling what it
  carried by e^{mⱼ - mⱼ₊₁}.  Its quotient a_J / l_J is the softmax-weighted sum over the tiles visited.

  Also here: the few facts about real numbers sitting inside the extended reals that the two programs' readings use
  (a finite sum of reals, the maximum of finitely many reals from the bottom element).
-/
import Mathlib.Data.EReal.Inv
import Mathlib.Analysis.SpecialFunctions.Exp
import Mathlib.Algebra.BigOperators.Field
import Mathlib.Algebra.Order.BigOperators.Group.Finset

noncomputable section

open Finset

namespace Cert.Softmax

variable {C : Type*} [Fintype C]

/-- The weighted sum carried after tile `j`: tile 0 starts it; every later tile rescales it by `e^{mⱼ - mⱼ₊₁}`
    and adds its own terms at the new shift. -/
def wsum (s v : ℕ → C → ℝ) (m : ℕ → ℝ) : ℕ → ℝ
  | 0 => ∑ c, Real.exp (s 0 c - m 0) * v 0 c
  | j + 1 => Real.exp (m j - m (j + 1)) * wsum s v m j + ∑ c, Real.exp (s (j + 1) c - m (j + 1)) * v (j + 1) c

/-- The normaliser carried after tile `j`. -/
def nrm (s : ℕ → C → ℝ) (m : ℕ → ℝ) : ℕ → ℝ
  | 0 => ∑ c, Real.exp (s 0 c - m 0)
  | j + 1 => Real.exp (m j - m (j + 1)) * nrm s m j + ∑ c, Real.exp (s (j + 1) c - m (j + 1))

theorem wsum_zero (s v : ℕ → C → ℝ) (m : ℕ → ℝ) : wsum s v m 0 = ∑ c, Real.exp (s 0 c - m 0) * v 0 c := rfl
theorem wsum_succ (s v : ℕ → C → ℝ) (m : ℕ → ℝ) (j : ℕ) :
    wsum s v m (j + 1) = Real.exp (m j - m (j + 1)) * wsum s v m j + ∑ c, Real.exp (s (j + 1) c - m (j + 1)) * v (j + 1) c := rfl
theorem nrm_zero (s : ℕ → C → ℝ) (m : ℕ → ℝ) : nrm s m 0 = ∑ c, Real.exp (s 0 c - m 0) := rfl
theorem nrm_succ (s : ℕ → C → ℝ) (m : ℕ → ℝ) (j : ℕ) :
    nrm s m (j + 1) = Real.exp (m j - m (j + 1)) * nrm s m j + ∑ c, Real.exp (s (j + 1) c - m (j + 1)) := rfl

/-- The carried weighted sum is the sum over all tiles so far at the CURRENT shift:
    `e^{mⱼ - mⱼ₊₁} · e^{x - mⱼ} = e^{x - mⱼ₊₁}`. -/
theorem wsum_eq (s v : ℕ → C → ℝ) (m : ℕ → ℝ) (j : ℕ) :
    wsum s v m j = ∑ i ∈ range (j + 1), ∑ c, Real.exp (s i c - m j) * v i c := by
  induction j with
  | zero => simp [wsum]
  | succ j ih =>
    rw [wsum, ih, Finset.sum_range_succ _ (j + 1), Finset.mul_sum]
    congr 1
    refine Finset.sum_congr rfl fun i _ => ?_
    rw [Finset.mul_sum]
    refine Finset.sum_congr rfl fun c _ => ?_
    rw [← mul_assoc, ← Real.exp_add]
    congr 2; ring

/-- The normaliser is the weighted sum with all weights one. -/
theorem nrm_eq_wsum (s : ℕ → C → ℝ) (m : ℕ → ℝ) (j : ℕ) : nrm s m j = wsum s (fun _ _ => 1) m j := by
  induction j with
  | zero => simp [nrm, wsum]
  | succ j ih => simp [nrm, wsum, ih]

theorem nrm_eq (s : ℕ → C → ℝ) (m : ℕ → ℝ) (j : ℕ) :
    nrm s m j = ∑ i ∈ range (j + 1), ∑ c, Real.exp (s i c - m j) := by
  rw [nrm_eq_wsum, wsum_eq]; simp

/-- The normaliser is positive: a nonempty sum of exponentials. -/
theorem nrm_pos [Nonempty C] (s : ℕ → C → ℝ) (m : ℕ → ℝ) (j : ℕ) : 0 < nrm s m j := by
  rw [nrm_eq]
  exact Finset.sum_pos (fun i _ => Finset.sum_pos (fun c _ => Real.exp_pos _) Finset.univ_nonempty)
    Finset.nonempty_range_add_one

/-- Shift invariance: the quotient of the weighted sum by the normaliser at shift `a` is the softmax-weighted sum
    at any other shift `b` (factor `e^{b - a}` out of both). -/
theorem quot_shift {ι : Type*} (S : Finset ι) (x V : ι → ℝ) (a b : ℝ) :
    (∑ n ∈ S, Real.exp (x n - a) * V n) / (∑ n ∈ S, Real.exp (x n - a))
      = ∑ n ∈ S, (Real.exp (x n - b) / ∑ k ∈ S, Real.exp (x k - b)) * V n := by
  have h : ∀ n, Real.exp (x n - a) = Real.exp (b - a) * Real.exp (x n - b) := fun n => by
    rw [← Real.exp_add]; congr 1; ring
  simp_rw [h, mul_assoc, ← Finset.mul_sum]
  rw [mul_div_mul_left _ _ (Real.exp_ne_zero _), Finset.sum_div]
  exact Finset.sum_congr rfl fun n _ => (div_mul_eq_mul_div _ _ _).symm

/-- The streaming pass's quotient after tile `J` is the softmax-weighted sum over tiles `0 … J`, at any shift. -/
theorem stream_eq (s v : ℕ → C → ℝ) (m : ℕ → ℝ) (b : ℝ) (J : ℕ) :
    wsum s v m J / nrm s m J
      = ∑ i ∈ range (J + 1), ∑ c, (Real.exp (s i c - b)
          / ∑ i' ∈ range (J + 1), ∑ c', Real.exp (s i' c' - b)) * v i c := by
  rw [wsum_eq, nrm_eq]
  have := quot_shift (range (J + 1) ×ˢ (univ : Finset C)) (fun p => s p.1 p.2) (fun p => v p.1 p.2) (m J) b
  simpa only [Finset.sum_product] using this

/-! ## Reals inside the extended reals -/

/-- A finite sum of reals, read in the extended reals, is the sum of the readings. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of finitely many (at least one) reals. -/
def rowmax {K : Type*} [Fintype K] [Nonempty K] (g : K → ℝ) : ℝ := Finset.univ.sup' Finset.univ_nonempty g

/-- Folding `max` from the bottom element over the readings of finitely many reals gives the reading of their maximum. -/
theorem fold_max_bot_coe {K : Type*} [Fintype K] [Nonempty K] (g : K → ℝ) :
    (Finset.univ : Finset K).fold max (⊥ : EReal) (fun k => (g k : EReal)) = ((rowmax g : ℝ) : EReal) := by
  apply le_antisymm
  · rw [Finset.fold_max_le]
    exact ⟨bot_le, fun k _ => EReal.coe_le_coe_iff.2 (Finset.le_sup' g (Finset.mem_univ k))⟩
  · rw [Finset.le_fold_max]
    obtain ⟨k, hk, e⟩ := Finset.exists_mem_eq_sup' (Finset.univ_nonempty (α := K)) g
    exact Or.inr ⟨k, hk, by rw [rowmax, e]⟩

/-! ## 2048 keys as four tiles of 512 -/

/-- Key `cc` of tile `i` (taken modulo the number of keys, so that it is defined for every `i`). -/
def tileIdx (i : ℕ) (cc : Fin 512) : Fin 2048 := ⟨(512 * i + cc.val) % 2048, Nat.mod_lt _ (by norm_num)⟩

/-- A sum over the 2048 keys is the sum over the four tiles of the sum over each tile's 512 keys. -/
theorem sum_tiles (f : Fin 2048 → ℝ) : ∑ n, f n = ∑ i ∈ range 4, ∑ cc : Fin 512, f (tileIdx i cc) := by
  rw [Finset.sum_range, ← Finset.sum_product', Finset.univ_product_univ]
  refine (Fintype.sum_equiv (finProdFinEquiv (m := 4) (n := 512)) (fun p => f (tileIdx p.1.val p.2)) f fun p => ?_).symm
  congr 1
  apply Fin.ext
  show (512 * p.1.val + p.2.val) % 2048 = p.2.val + 512 * p.1.val
  have h1 := p.1.isLt
  have h2 := p.2.isLt
  omega

end Cert.Softmax

end
-- ==== Proof.TileReal.lean ====
/-
  The body's arithmetic for one key/value tile when every entry it reads is a real number: each result is then the
  reading of a real number, given by the streaming-softmax recurrences (the new maximum, the rescaling factor
  `e^{μ - μ'}`, the exponentials `e^{score - μ'}`, the rescaled normaliser and weighted sum plus the tile's terms).
-/
import proofs.«155391_j3633542333230_2_alg».proof.Proof.TileArith
import proofs.«155391_j3633542333230_2_alg».proof.Proof.OnlineSoftmax

noncomputable section

open Idealize.ShloMosaic Idealize.ShloMosaic.TcCoe Idealize.ShloMosaic.ValueIdx

namespace Cert.KernelIdeal.Tile

open Cert.KernelIdeal Cert.KernelIdeal.Gen Cert.Softmax

/-- The real score of query row `r` against key `cc` of the tile: the row of the projected query against the key's
    value row, plus the key's mask term. -/
def score (Q : Fin 1024 → Fin 1024 → ℝ) (Vt : Fin 512 → Fin 1024 → ℝ) (Et : Fin 512 → ℝ) (r : Fin 1024) (cc : Fin 512) : ℝ :=
  (∑ e, Q r e * Vt cc e) + Et cc

variable (q : FVec Ideal S1024x1024 .bf16) (vb : FVec Ideal S1x512x1024 .bf16) (mk : Vec Ideal S1x1x512 .i32)
variable (Q : Fin 1024 → Fin 1024 → ℝ) (Vt : Fin 512 → Fin 1024 → ℝ) (Et : Fin 512 → ℝ)

/-- The tile's inputs are readings of reals: the projected query tile, the value tile, and each key's mask term. -/
structure Reads : Prop where
  hq : ∀ r e, q (ix2 r e) = ((Q r e : ℝ) : EReal)
  hv : ∀ cc e, vb (ix3 (0 : Fin 1) cc e) = ((Vt cc e : ℝ) : EReal)
  hm : ∀ cc, (((1#32 - mk (ix3 (0 : Fin 1) (0 : Fin 1) cc)).toInt : ℝ) : EReal) * Ideal.ofBits .f32 0xF149F2CA#32
          = ((Et cc : ℝ) : EReal)

variable {q vb mk Q Vt Et}

theorem scores_real (h : Reads q vb mk Q Vt Et) (r : Fin 1024) (cc : Fin 512) :
    k0_pay10 (F := Ideal) q vb mk (ix2 r cc) = ((score Q Vt Et r cc : ℝ) : EReal) := by
  rw [scores_apply, h.hm, score, EReal.coe_add, Softmax.coe_sum]
  refine congrArg₂ (· + ·) (Finset.sum_congr rfl fun e _ => ?_) rfl
  rw [h.hq, h.hv, EReal.coe_mul]

theorem bot_eq : Ideal.ofBits .f32 0xFF800000#32 = ⊥ := by simp [Ideal.ofBits, Ideal.ieee]

/-- The tile's own maximum of row `r`, folded from `-∞`, is the reading of the maximum of the row's real scores. -/
theorem tilemax_real (h : Reads q vb mk Q Vt Et) (r : Fin 1024) :
    (Finset.univ : Finset (Fin 512)).fold max (Ideal.ofBits .f32 0xFF800000#32) (fun c => k0_pay10 (F := Ideal) q vb mk (ix2 r c))
      = ((rowmax (score Q Vt Et r) : ℝ) : EReal) := by
  rw [bot_eq, show (fun c => k0_pay10 (F := Ideal) q vb mk (ix2 r c)) = fun c => ((score Q Vt Et r c : ℝ) : EReal) from
    funext fun c => scores_real h r c]
  exact fold_max_bot_coe _

/-- The new maximum over a real old maximum. -/
theorem newmax_real (h : Reads q vb mk Q Vt Et) (mo : FVec Ideal S1024x1 .f32) (r : Fin 1024) (μ : ℝ)
    (hmo : mo (ix2 r (0 : Fin 1)) = ((μ : ℝ) : EReal)) :
    k0_pay11 (F := Ideal) q vb mk mo (ix2 r (0 : Fin 1)) = ((max μ (rowmax (score Q Vt Et r)) : ℝ) : EReal) := by
  rw [newmax_apply, tilemax_real h, hmo]
  exact (EReal.coe_strictMono.monotone.map_max).symm

/-- The new maximum over the reset value `-∞`: the tile's own. -/
theorem newmax_first (h : Reads q vb mk Q Vt Et) (mo : FVec Ideal S1024x1 .f32) (r : Fin 1024)
    (hmo : mo (ix2 r (0 : Fin 1)) = ⊥) :
    k0_pay11 (F := Ideal) q vb mk mo (ix2 r (0 : Fin 1)) = ((rowmax (score Q Vt Et r) : ℝ) : EReal) := by
  rw [newmax_apply, tilemax_real h, hmo]
  exact max_eq_right bot_le

theorem expo_real (h : Reads q vb mk Q Vt Et) (mo : FVec Ideal S1024x1 .f32) (r : Fin 1024) (cc : Fin 512) (μ' : ℝ)
    (hμ' : k0_pay11 (F := Ideal) q vb mk mo (ix2 r (0 : Fin 1)) = ((μ' : ℝ) : EReal)) :
    k0_pay13 (F := Ideal) q vb mk mo (ix2 r cc) = ((Real.exp (score Q Vt Et r cc - μ') : ℝ) : EReal) := by
  rw [expo_apply, scores_real h, hμ', ← EReal.coe_sub, Ideal.exp_coe]

theorem rescale_real (mo mo' : FVec Ideal S1024x1 .f32) (r : Fin 1024) (μ μ' : ℝ)
    (hmo' : mo' (ix2 r (0 : Fin 1)) = ((μ : ℝ) : EReal))
    (hμ' : k0_pay11 (F := Ideal) q vb mk mo (ix2 r (0 : Fin 1)) = ((μ' : ℝ) : EReal)) :
    k0_pay12 (F := Ideal) q vb mk mo mo' (ix2 r (0 : Fin 1)) = ((Real.exp (μ - μ') : ℝ) : EReal) := by
  rw [rescale_apply, hmo', hμ', ← EReal.coe_sub, Ideal.exp_coe]

/-- The new normaliser: what the rescaled old one reads as (`A`), plus the tile's exponentials. -/
theorem newnorm_real (h : Reads q vb mk Q Vt Et) (mo mo' lo : FVec Ideal S1024x1 .f32) (r : Fin 1024) (μ' A : ℝ)
    (hμ' : k0_pay11 (F := Ideal) q vb mk mo (ix2 r (0 : Fin 1)) = ((μ' : ℝ) : EReal))
    (hA : k0_pay12 (F := Ideal) q vb mk mo mo' (ix2 r (0 : Fin 1)) * lo (ix2 r (0 : Fin 1)) = ((A : ℝ) : EReal)) :
    k0_pay14 (F := Ideal) q vb mk mo mo' lo (ix2 r (0 : Fin 1))
      = ((A + ∑ cc, Real.exp (score Q Vt Et r cc - μ') : ℝ) : EReal) := by
  rw [newnorm_apply, hA, EReal.coe_add, Softmax.coe_sum]
  exact congrArg₂ (· + ·) rfl (Finset.sum_congr rfl fun cc _ => expo_real h mo r cc μ' hμ')

/-- The new weighted sum: what the rescaled old one reads as (`A`), plus the tile's exponentials against the value
    column. -/
theorem newacc_real (h : Reads q vb mk Q Vt Et) (mo mo' : FVec Ideal S1024x1 .f32) (ao : FVec Ideal S1024x1024 .f32)
    (r e : Fin 1024) (μ' A : ℝ)
    (hμ' : k0_pay11 (F := Ideal) q vb mk mo (ix2 r (0 : Fin 1)) = ((μ' : ℝ) : EReal))
    (hA : k0_pay12 (F := Ideal) q vb mk mo mo' (ix2 r (0 : Fin 1)) * ao (ix2 r e) = ((A : ℝ) : EReal)) :
    k0_pay2 (F := Ideal) (k0_pay9 (F := Ideal) vb) (k0_pay12 (F := Ideal) q vb mk mo mo') (k0_pay13 (F := Ideal) q vb mk mo) ao (ix2 r e)
      = ((A + ∑ cc, Real.exp (score Q Vt Et r cc - μ') * Vt cc e : ℝ) : EReal) := by
  rw [newacc_apply, hA, EReal.coe_add, Softmax.coe_sum]
  refine congrArg₂ (· + ·) rfl (Finset.sum_congr rfl fun cc _ => ?_)
  rw [expo_real h mo r cc μ' hμ', vtile_apply, h.hv, EReal.coe_mul]

/-- The stored quotient of two reals, the divisor not zero. -/
theorem quot_real (acc : FVec Ideal S1024x1024 .f32) (l : FVec Ideal S1024x1 .f32) (u : Fin 1) (r e : Fin 1024) (α lam : ℝ)
    (hα : acc (ix2 r e) = ((α : ℝ) : EReal)) (hl : l (ix2 r (0 : Fin 1)) = ((lam : ℝ) : EReal)) (h0 : lam ≠ 0) :
    k0_pay4 (F := Ideal) acc l (ix3 u r e) = ((α / lam : ℝ) : EReal) := by
  rw [quot_apply, hα, hl, Ideal.div_coe h0, ← EReal.coe_mul, mul_one_div]

end Cert.KernelIdeal.Tile
end
-- ==== Proof.Blocks.lean ====
import proofs.«155391_j3633542333230_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx

/-!
  The arrays the kernel's windows stage — the keys, the transposed weight, the values (all three only changed in
  format, which over the extended reals changes nothing) and the mask with a unit axis inserted — and the block of
  each that a grid point reads: point `n` of the 16 · 2 · 4 grid is batch `n / 8`, query tile `(n / 4) % 2`,
  key/value tile `n % 4`.
-/
namespace Cert.KernelIdeal.Blocks

open Cert.KernelIdeal Cert.KernelIdeal.Gen

variable (m : (ℓ : Loc nD τ sig) → Buf (Elt Ideal) ℓ) (c : Dev nD)

variable {α : Type}

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## The staged arrays -/

theorem V_keys : (V m c main_v1 : S16x2048x1024.Idx → EReal) = m ((c : Thread nD τ).loc main_arg2) := by
  dsimp only [Gen.V, Gen.hostOps0]; after_results; rfl

theorem V_vals : (V m c main_v2 : S16x2048x1024.Idx → EReal) = m ((c : Thread nD τ).loc main_arg0) := by
  dsimp only [Gen.V, Gen.hostOps0]; after_results; rfl

theorem V_mask : (V m c main_v0 : S16x1x2048.Idx → BitVec 32)
    = shapeCast S16x1x2048 (m ((c : Thread nD τ).loc main_arg1)) shapeCasts_S16x2048_S16x1x2048 := by
  dsimp only [Gen.V, Gen.hostOps0]; after_results; rfl

theorem V_wT : (V m c main_v4 : S1024x1024.Idx → EReal)
    = transpose S1024x1024 [1, 0] (m ((c : Thread nD τ).loc main_arg3)) transposes_S1024x1024_S1024x1024_1_0 := by
  dsimp only [Gen.V, Gen.hostOps0]; after_results; rfl

/-! ## Which block a point reads -/

/-- The windows' block indices at point `t`, decided once over the grid. -/
theorem idx_facts : ∀ t : Fin cfg0.N, win0_0.index t 0 = t.val / 8 ∧ win0_0.index t 1 = (t.val / 4) % 2 ∧ win0_0.index t 2 = 0
    ∧ win0_2.index t 0 = t.val / 8 ∧ win0_2.index t 1 = t.val % 4 ∧ win0_2.index t 2 = 0
    ∧ win0_3.index t 0 = t.val / 8 ∧ win0_3.index t 1 = 0 ∧ win0_3.index t 2 = t.val % 4
    ∧ win0_1.index t 0 = 0 ∧ win0_1.index t 1 = 0
    ∧ win0_4.index t 0 = t.val / 8 ∧ win0_4.index t 1 = (t.val / 4) % 2 ∧ win0_4.index t 2 = 0 :=
  (by decide +kernel : ∀ t : Fin grid0.N, _)

/-- Row `r` of the key block at point `t` is row `1024 · ((t / 4) % 2) + r` of batch `t / 8`. -/
theorem keys_block (t : Fin cfg0.N) (r d : Fin 1024) (i : S16x2048x1024.Idx) (hi0 : (i 0).val = t.val / 8)
    (hi1 : (i 1).val = 1024 * ((t.val / 4) % 2) + r.val) (hi2 : (i 2).val = d.val) :
    iblk m c 0 t (ix3 (0 : Fin 1) r d) = m ((c : Thread nD τ).loc main_arg2) i := by
  have hx := idx_facts t
  unfold iblk
  rw [View.read_apply]
  show V m c main_v1 (((cfg0.win 0).blk t).view.emb (ix3 (0 : Fin 1) r d)) = _
  refine (congrFun (V_keys m c) _).trans (congrArg (m ((c : Thread nD τ).loc main_arg2)) (funext fun a => Fin.ext ?_))
  match a with
  | ⟨0, _⟩ => show win0_0.index t 0 * 1 + 1 * 0 = (i 0).val; rw [hx.1, hi0]; omega
  | ⟨1, _⟩ => show win0_0.index t 1 * 1024 + 1 * r.val = (i 1).val; rw [hx.2.1, hi1]; omega
  | ⟨2, _⟩ => show win0_0.index t 2 * 1024 + 1 * d.val = (i 2).val; rw [hx.2.2.1, hi2]; omega

/-- Row `cc` of the value block at point `t` is row `512 · (t % 4) + cc` of batch `t / 8`. -/
theorem vals_block (t : Fin cfg0.N) (cc : Fin 512) (e : Fin 1024) (i : S16x2048x1024.Idx) (hi0 : (i 0).val = t.val / 8)
    (hi1 : (i 1).val = 512 * (t.val % 4) + cc.val) (hi2 : (i 2).val = e.val) :
    iblk m c 2 t (ix3 (0 : Fin 1) cc e) = m ((c : Thread nD τ).loc main_arg0) i := by
  have hx := idx_facts t
  unfold iblk
  rw [View.read_apply]
  show V m c main_v2 (((cfg0.win 2).blk t).view.emb (ix3 (0 : Fin 1) cc e)) = _
  refine (congrFun (V_vals m c) _).trans (congrArg (m ((c : Thread nD τ).loc main_arg0)) (funext fun a => Fin.ext ?_))
  match a with
  | ⟨0, _⟩ => show win0_2.index t 0 * 1 + 1 * 0 = (i 0).val; rw [hx.2.2.2.1, hi0]; omega
  | ⟨1, _⟩ => show win0_2.index t 1 * 512 + 1 * cc.val = (i 1).val; rw [hx.2.2.2.2.1, hi1]; omega
  | ⟨2, _⟩ => show win0_2.index t 2 * 1024 + 1 * e.val = (i 2).val; rw [hx.2.2.2.2.2.1, hi2]; omega

/-- Entry `cc` of the mask block at point `t` is the mask of key `512 · (t % 4) + cc` of batch `t / 8`. -/
theorem mask_block (t : Fin cfg0.N) (cc : Fin 512) (b : Fin 16) (n : Fin 2048) (hb : b.val = t.val / 8)
    (hn : n.val = 512 * (t.val % 4) + cc.val) :
    iblk m c 3 t (ix3 (0 : Fin 1) (0 : Fin 1) cc) = m ((c : Thread nD τ).loc main_arg1) (ix2 b n) := by
  have hx := idx_facts t
  unfold iblk
  rw [View.read_apply]
  show V m c main_v0 (((cfg0.win 3).blk t).view.emb (ix3 (0 : Fin 1) (0 : Fin 1) cc)) = _
  have e : ((cfg0.win 3).blk t).view.emb (ix3 (0 : Fin 1) (0 : Fin 1) cc) = ix3 b (0 : Fin 1) n := funext fun a => Fin.ext (by
    match a with
    | ⟨0, _⟩ => show win0_3.index t 0 * 1 + 1 * 0 = b.val; rw [hx.2.2.2.2.2.2.1, hb]; omega
    | ⟨1, _⟩ => show win0_3.index t 1 * 1 + 1 * 0 = 0; rw [hx.2.2.2.2.2.2.2.1]
    | ⟨2, _⟩ => show win0_3.index t 2 * 512 + 1 * cc.val = n.val; rw [hx.2.2.2.2.2.2.2.2.1, hn]; omega)
  rw [e]
  exact (congrFun (V_mask m c) _).trans (shapeCast_ab_a1b_apply _ _ b 0 n)

/-- The weight block (the whole transposed weight) at `(d, e)` is the weight at `(e, d)`. -/
theorem wgt_block (t : Fin cfg0.N) (d e : Fin 1024) :
    iblk m c 1 t (ix2 d e) = m ((c : Thread nD τ).loc main_arg3) (ix2 e d) := by
  have hx := idx_facts t
  unfold iblk
  rw [View.read_apply]
  show V m c main_v4 (((cfg0.win 1).blk t).view.emb (ix2 d e)) = _
  have e' : ((cfg0.win 1).blk t).view.emb (ix2 d e) = ix2 d e := funext fun a => Fin.ext (by
    match a with
    | ⟨0, _⟩ => show win0_1.index t 0 * 1024 + 1 * d.val = d.val; rw [hx.2.2.2.2.2.2.2.2.2.1]; omega
    | ⟨1, _⟩ => show win0_1.index t 1 * 1024 + 1 * e.val = e.val; rw [hx.2.2.2.2.2.2.2.2.2.2.1]; omega)
  rw [e']
  exact (congrFun (V_wT m c) _).trans (transpose_ix2_apply _ _ d e)

end Cert.KernelIdeal.Blocks
end
-- ==== Proof.AttnSpec.lean ====
/-
  The attention output over the real numbers, and the same quantity as the streaming pass computes it.

  For batch `b` and query row `k`: the projected query  pₑ = ∑_d K[b,k,d]·W[e,d],  the masked score of key `n`
  xₙ = ∑ₑ pₑ·V[b,n,e] + E[b,n]  (E the key's mask term),  and the output at column `e`
  ∑ₙ softmax(x)ₙ · V[b,n,e],  the softmax taken with the row's maximum subtracted.  The streaming pass visits the
  2048 keys in four tiles of 512, carrying the running maximum as its shift.
-/
import proofs.«155391_j3633542333230_2_alg».proof.Proof.OnlineSoftmax

noncomputable section

open Finset

namespace Cert.Attn

open Cert.Softmax

variable (K V : Fin 16 → Fin 2048 → Fin 1024 → ℝ) (W : Fin 1024 → Fin 1024 → ℝ) (E : Fin 16 → Fin 2048 → ℝ)

/-- The projected query row. -/
def proj (b : Fin 16) (k : Fin 2048) (e : Fin 1024) : ℝ := ∑ d, K b k d * W e d

/-- The masked score of key `n` for query row `k`. -/
def logit (b : Fin 16) (k n : Fin 2048) : ℝ := (∑ e, proj K W b k e * V b n e) + E b n

/-- The attention output: the softmax of the row's scores (shifted by their maximum) against the value column. -/
def attn (b : Fin 16) (k : Fin 2048) (e : Fin 1024) : ℝ :=
  ∑ n, (Real.exp (logit K V W E b k n - rowmax (logit K V W E b k))
        / ∑ n', Real.exp (logit K V W E b k n' - rowmax (logit K V W E b k))) * V b n e

/-- The scores of the row, tile by tile. -/
def tscore (b : Fin 16) (k : Fin 2048) (j : ℕ) (cc : Fin 512) : ℝ := logit K V W E b k (tileIdx j cc)

/-- The value column, tile by tile. -/
def tval (b : Fin 16) (e : Fin 1024) (j : ℕ) (cc : Fin 512) : ℝ := V b (tileIdx j cc) e

/-- The running maximum after tile `j`. -/
def runmax (xs : ℕ → Fin 512 → ℝ) : ℕ → ℝ
  | 0 => rowmax (xs 0)
  | j + 1 => max (runmax xs j) (rowmax (xs (j + 1)))

theorem runmax_zero (xs : ℕ → Fin 512 → ℝ) : runmax xs 0 = rowmax (xs 0) := rfl
theorem runmax_succ (xs : ℕ → Fin 512 → ℝ) (j : ℕ) : runmax xs (j + 1) = max (runmax xs j) (rowmax (xs (j + 1))) := rfl

/-- The streaming pass's quotient after the fourth tile is the attention output. -/
theorem stream_attn (b : Fin 16) (k : Fin 2048) (e : Fin 1024) :
    wsum (tscore K V W E b k) (tval V b e) (runmax (tscore K V W E b k)) 3
        / nrm (tscore K V W E b k) (runmax (tscore K V W E b k)) 3
      = attn K V W E b k e := by
  rw [stream_eq _ _ _ (rowmax (logit K V W E b k)) 3, attn, sum_tiles, sum_tiles (fun n' => Real.exp _)]
  rfl

/-! ## Which batch, query row and key a grid point and a block coordinate name -/

/-- The batch of grid point `n` (of 16 · 2 · 4, the key/value tile fastest). -/
def batchOf (n : ℕ) (h : n < 128) : Fin 16 := ⟨n / 8, by omega⟩

/-- The query row that row `r` of point `n`'s query tile is. -/
def rowOf (n : ℕ) (r : Fin 1024) : Fin 2048 := ⟨1024 * ((n / 4) % 2) + r.val, by have := r.isLt; omega⟩

end Cert.Attn
end
-- ==== Proof.KernelValue.lean ====
/-
  The kernel's result array: at every index `(b, k, e)` it ends holding the attention output of query row `k` of
  batch `b` at column `e`, provided the keys, the values, the weight and the masking constant are real numbers.

  A query tile is visited at four consecutive grid points, one per key/value tile.  After the `j`-th of them the
  carried scratch holds, row by row, the projected query, the running maximum of the scores seen so far, and the
  streaming softmax's normaliser and weighted sum at that shift (`Holds`): the first point establishes this from
  the reset values (`-∞`, 0, 0 — the rescaling factor is then multiplied by zero and drops out), each later point
  carries it on by `e^{μ - μ'} · e^{x - μ} = e^{x - μ'}`, and the fourth stores the quotient, which is the attention
  output whatever shift the pass carried.  Only the fourth point of each query tile writes its block back; those
  blocks tile the array.
-/
import proofs.«155391_j3633542333230_2_alg».proof.Proof.Steps
import proofs.«155391_j3633542333230_2_alg».proof.Proof.TileReal
import proofs.«155391_j3633542333230_2_alg».proof.Proof.Blocks
import proofs.«155391_j3633542333230_2_alg».proof.Proof.AttnSpec
import proofs.«155391_j3633542333230_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Attention

open Cert.KernelIdeal Cert.KernelIdeal.Gen Cert.Softmax Cert.Attn Cert.KernelIdeal.Tile Cert.KernelIdeal.Steps

variable (m : (ℓ : Loc nD τ sig) → Buf (Elt Ideal) ℓ) (c : Dev nD)
variable (K V : Fin 16 → Fin 2048 → Fin 1024 → ℝ) (W : Fin 1024 → Fin 1024 → ℝ) (Nr : ℝ)

/-- The float arguments and the masking constant are readings of real numbers. -/
structure ArgsReal : Prop where
  hK : ∀ b k d, m ((c : Thread nD τ).loc main_arg2) (ix3 b k d) = ((K b k d : ℝ) : EReal)
  hV : ∀ b n e, m ((c : Thread nD τ).loc main_arg0) (ix3 b n e) = ((V b n e : ℝ) : EReal)
  hW : ∀ e d, m ((c : Thread nD τ).loc main_arg3) (ix2 e d) = ((W e d : ℝ) : EReal)
  hN : Ideal.ofBits .f32 0xF149F2CA#32 = ((Nr : ℝ) : EReal)

/-- The mask term of key `n` of batch `b`: `(1 - mask)` as an integer, times the masking constant. -/
def maskTerm (b : Fin 16) (n : Fin 2048) : ℝ :=
  ((1#32 - m ((c : Thread nD τ).loc main_arg1) (ix2 b n)).toInt : ℝ) * Nr

theorem lt128 {n : ℕ} (h : n < cfg0.N) : n < 128 := lt_of_lt_of_eq h (show cfg0.N = 128 from N_0)

/-- At point `t` (batch `b`, key/value tile `j`), over a query tile that reads as the projected query rows, the
    body's inputs are readings of reals: the value tile and each key's mask term. -/
theorem reads_at (hR : ArgsReal m c K V W Nr) (t : Fin cfg0.N) (b : Fin 16) (rowf : Fin 1024 → Fin 2048) (j : ℕ)
    (hb : b.val = t.val / 8) (hj : t.val % 4 = j)
    (q : FVec Ideal S1024x1024 .bf16) (hq : ∀ r e, q (ix2 r e) = ((proj K W b (rowf r) e : ℝ) : EReal)) :
    Reads q (iblk m c 2 t) (iblk m c 3 t) (fun r e => proj K W b (rowf r) e) (fun cc e => V b (tileIdx j cc) e)
      (fun cc => maskTerm m c Nr b (tileIdx j cc)) where
  hq := hq
  hv := fun cc e => by
    have hn : (tileIdx j cc).val = 512 * (t.val % 4) + cc.val := by
      show (512 * j + cc.val) % 2048 = _
      have := cc.isLt; omega
    rw [Blocks.vals_block m c t cc e (ix3 b (tileIdx j cc) e) hb hn rfl]
    exact hR.hV _ _ _
  hm := fun cc => by
    have hn : (tileIdx j cc).val = 512 * (t.val % 4) + cc.val := by
      show (512 * j + cc.val) % 2048 = _
      have := cc.isLt; omega
    rw [Blocks.mask_block m c t cc b (tileIdx j cc) hb hn, hR.hN, ← EReal.coe_mul]
    rfl

/-- The tile's real scores are the row's scores at the tile's keys. -/
theorem score_eq (b : Fin 16) (rowf : Fin 1024 → Fin 2048) (j : ℕ) (r : Fin 1024) :
    score (fun r e => proj K W b (rowf r) e) (fun cc e => V b (tileIdx j cc) e) (fun cc => maskTerm m c Nr b (tileIdx j cc)) r
      = tscore K V W (maskTerm m c Nr) b (rowf r) j := funext fun cc => rfl

/-- What the carried scratch holds after tile `j` of a query tile of batch `b` whose rows are `rowf`. -/
def Holds (st : Vec Ideal S1x1024x1024 .f32 × Vec Ideal S1024x1024 .bf16 × Vec Ideal S1024x1 .f32 × Vec Ideal S1024x1 .f32 × Vec Ideal S1024x1024 .f32)
    (b : Fin 16) (rowf : Fin 1024 → Fin 2048) (j : ℕ) : Prop :=
  (∀ r e, st.2.1 (ix2 r e) = ((proj K W b (rowf r) e : ℝ) : EReal))
  ∧ (∀ r, st.2.2.1 (ix2 r (0 : Fin 1)) = ((runmax (tscore K V W (maskTerm m c Nr) b (rowf r)) j : ℝ) : EReal))
  ∧ (∀ r, st.2.2.2.1 (ix2 r (0 : Fin 1))
      = ((nrm (tscore K V W (maskTerm m c Nr) b (rowf r)) (runmax (tscore K V W (maskTerm m c Nr) b (rowf r))) j : ℝ) : EReal))
  ∧ (∀ r e, st.2.2.2.2 (ix2 r e)
      = ((wsum (tscore K V W (maskTerm m c Nr) b (rowf r)) (tval V b e) (runmax (tscore K V W (maskTerm m c Nr) b (rowf r))) j : ℝ) : EReal))

/-- The first key/value tile of a query tile: from the reset values. -/
theorem first (hR : ArgsReal m c K V W Nr) (t : Fin cfg0.N) (b : Fin 16) (rowf : Fin 1024 → Fin 2048)
    (hb : b.val = t.val / 8) (hrow : ∀ r, (rowf r).val = 1024 * ((t.val / 4) % 2) + r.val) (h0 : t.val % 4 = 0) :
    Holds m c K V W Nr (outsAt0 m c t.val t.isLt) b rowf 0 := by
  have h1 : ¬t.val % 4 = 3 := by omega
  have hq : ∀ r e, k0_pay5 (F := Ideal) (iblk m c 0 t) (iblk m c 1 t) (ix2 r e) = ((proj K W b (rowf r) e : ℝ) : EReal) := fun r e => by
    rw [Tile.query_apply, proj, Softmax.coe_sum]
    refine Finset.sum_congr rfl fun d _ => ?_
    rw [Blocks.keys_block m c t r d (ix3 b (rowf r) d) hb (hrow r) rfl, Blocks.wgt_block, hR.hK, hR.hW, EReal.coe_mul]
  have hrd := reads_at m c K V W Nr hR t b rowf 0 hb h0 _ hq
  have hμ : ∀ r, k0_pay11 (F := Ideal) (k0_pay5 (F := Ideal) (iblk m c 0 t) (iblk m c 1 t)) (iblk m c 2 t) (iblk m c 3 t) (k0_pay6 (F := Ideal)) (ix2 r (0 : Fin 1))
      = ((runmax (tscore K V W (maskTerm m c Nr) b (rowf r)) 0 : ℝ) : EReal) := fun r =>
    by rw [newmax_first hrd (k0_pay6 (F := Ideal)) r (Tile.pay6_apply _), score_eq, runmax_zero]
  refine ⟨fun r e => ?_, fun r => ?_, fun r => ?_, fun r e => ?_⟩
  · rw [Steps.first_query m c t h0 h1]; exact hq r e
  · rw [Steps.first_max m c t h0 h1, Tile.pay3_eq]; exact hμ r
  · rw [Steps.first_norm m c t h0 h1, Tile.pay1_eq,
      newnorm_real hrd (k0_pay6 (F := Ideal)) (k0_pay6 (F := Ideal)) (k0_pay7 (F := Ideal)) r ((runmax (tscore K V W (maskTerm m c Nr) b (rowf r))) 0) 0 (hμ r) (by rw [Tile.pay7_apply, mul_zero, EReal.coe_zero]),
      zero_add, score_eq, nrm_zero]
  · rw [Steps.first_acc m c t h0 h1,
      newacc_real hrd (k0_pay6 (F := Ideal)) (k0_pay6 (F := Ideal)) (k0_pay8 (F := Ideal)) r e ((runmax (tscore K V W (maskTerm m c Nr) b (rowf r))) 0) 0 (hμ r) (by rw [Tile.pay8_apply, mul_zero, EReal.coe_zero]),
      zero_add, score_eq, wsum_zero]
    rfl

/-- A later tile: the carried state rescaled to the new maximum, plus the tile's terms. -/
theorem mid (hR : ArgsReal m c K V W Nr) (t : Fin cfg0.N) (b : Fin 16) (rowf : Fin 1024 → Fin 2048) (j : ℕ)
    (hb : b.val = t.val / 8) (hj : t.val % 4 = j + 1) (h1 : ¬t.val % 4 = 3)
    (ih : Holds m c K V W Nr (prev m c t) b rowf j) :
    Holds m c K V W Nr (outsAt0 m c t.val t.isLt) b rowf (j + 1) := by
  have h0 : ¬t.val % 4 = 0 := by omega
  obtain ⟨iq, im, il, ia⟩ := ih
  have hrd := reads_at m c K V W Nr hR t b rowf (j + 1) hb hj _ iq
  have hμ : ∀ r, k0_pay11 (F := Ideal) (prev m c t).2.1 (iblk m c 2 t) (iblk m c 3 t) (prev m c t).2.2.1 (ix2 r (0 : Fin 1))
      = ((runmax (tscore K V W (maskTerm m c Nr) b (rowf r)) (j + 1) : ℝ) : EReal) := fun r =>
    by rw [newmax_real hrd _ r _ (im r), score_eq, runmax_succ]
  have ha : ∀ r, k0_pay12 (F := Ideal) (prev m c t).2.1 (iblk m c 2 t) (iblk m c 3 t) (prev m c t).2.2.1 (prev m c t).2.2.1 (ix2 r (0 : Fin 1))
      = ((Real.exp (runmax (tscore K V W (maskTerm m c Nr) b (rowf r)) j - runmax (tscore K V W (maskTerm m c Nr) b (rowf r)) (j + 1)) : ℝ) : EReal) := fun r =>
    rescale_real _ _ r _ _ (im r) (hμ r)
  refine ⟨fun r e => ?_, fun r => ?_, fun r => ?_, fun r e => ?_⟩
  · rw [Steps.mid_query m c t h0 h1]; exact iq r e
  · rw [Steps.mid_max m c t h0 h1, Tile.pay3_eq]; exact hμ r
  · rw [Steps.mid_norm m c t h0 h1, Tile.pay1_eq,
      newnorm_real hrd _ _ _ r ((runmax (tscore K V W (maskTerm m c Nr) b (rowf r))) (j + 1)) (Real.exp ((runmax (tscore K V W (maskTerm m c Nr) b (rowf r))) j - (runmax (tscore K V W (maskTerm m c Nr) b (rowf r))) (j + 1)) * nrm (tscore K V W (maskTerm m c Nr) b (rowf r)) (runmax (tscore K V W (maskTerm m c Nr) b (rowf r))) j) (hμ r)
        (by rw [ha r, il r, ← EReal.coe_mul]),
      score_eq, nrm_succ]
  · rw [Steps.mid_acc m c t h0 h1,
      newacc_real hrd _ _ _ r e ((runmax (tscore K V W (maskTerm m c Nr) b (rowf r))) (j + 1)) (Real.exp ((runmax (tscore K V W (maskTerm m c Nr) b (rowf r))) j - (runmax (tscore K V W (maskTerm m c Nr) b (rowf r))) (j + 1)) * wsum (tscore K V W (maskTerm m c Nr) b (rowf r)) (tval V b e) (runmax (tscore K V W (maskTerm m c Nr) b (rowf r))) j) (hμ r)
        (by rw [ha r, ia r e, ← EReal.coe_mul]),
      score_eq, wsum_succ]
    rfl

/-- The last tile: the stored quotient of the carried weighted sum by the carried normaliser. -/
theorem last_quot (hR : ArgsReal m c K V W Nr) (t : Fin cfg0.N) (b : Fin 16) (rowf : Fin 1024 → Fin 2048) (j : ℕ)
    (hb : b.val = t.val / 8) (hj : t.val % 4 = j + 1) (h3 : t.val % 4 = 3) (ih : Holds m c K V W Nr (prev m c t) b rowf j)
    (u : Fin 1) (r e : Fin 1024) :
    (outsAt0 m c t.val t.isLt).1 (ix3 u r e)
      = ((wsum (tscore K V W (maskTerm m c Nr) b (rowf r)) (tval V b e) (runmax (tscore K V W (maskTerm m c Nr) b (rowf r))) (j + 1) / nrm (tscore K V W (maskTerm m c Nr) b (rowf r)) (runmax (tscore K V W (maskTerm m c Nr) b (rowf r))) (j + 1) : ℝ) : EReal) := by
  have h0 : ¬t.val % 4 = 0 := by omega
  obtain ⟨iq, im, il, ia⟩ := ih
  have hrd := reads_at m c K V W Nr hR t b rowf (j + 1) hb hj _ iq
  have hμ : k0_pay11 (F := Ideal) (prev m c t).2.1 (iblk m c 2 t) (iblk m c 3 t) (prev m c t).2.2.1 (ix2 r (0 : Fin 1))
      = (((runmax (tscore K V W (maskTerm m c Nr) b (rowf r))) (j + 1) : ℝ) : EReal) := by
    rw [newmax_real hrd _ r _ (im r), score_eq, runmax_succ]
  have ha : k0_pay12 (F := Ideal) (prev m c t).2.1 (iblk m c 2 t) (iblk m c 3 t) (prev m c t).2.2.1 (prev m c t).2.2.1 (ix2 r (0 : Fin 1))
      = ((Real.exp ((runmax (tscore K V W (maskTerm m c Nr) b (rowf r))) j - (runmax (tscore K V W (maskTerm m c Nr) b (rowf r))) (j + 1)) : ℝ) : EReal) :=
    rescale_real _ _ r _ _ (im r) hμ
  rw [Steps.last_out m c t h0 h3]
  exact quot_real _ _ u r e
      (wsum (tscore K V W (maskTerm m c Nr) b (rowf r)) (tval V b e) (runmax (tscore K V W (maskTerm m c Nr) b (rowf r))) (j + 1)) (nrm (tscore K V W (maskTerm m c Nr) b (rowf r)) (runmax (tscore K V W (maskTerm m c Nr) b (rowf r))) (j + 1))
      (by rw [newacc_real hrd _ _ _ r e ((runmax (tscore K V W (maskTerm m c Nr) b (rowf r))) (j + 1)) (Real.exp ((runmax (tscore K V W (maskTerm m c Nr) b (rowf r))) j - (runmax (tscore K V W (maskTerm m c Nr) b (rowf r))) (j + 1)) * wsum (tscore K V W (maskTerm m c Nr) b (rowf r)) (tval V b e) (runmax (tscore K V W (maskTerm m c Nr) b (rowf r))) j) hμ
            (by rw [ha, ia r e, ← EReal.coe_mul]), score_eq, wsum_succ]; rfl)
      (by rw [Tile.pay1_eq, newnorm_real hrd _ _ _ r ((runmax (tscore K V W (maskTerm m c Nr) b (rowf r))) (j + 1)) (Real.exp ((runmax (tscore K V W (maskTerm m c Nr) b (rowf r))) j - (runmax (tscore K V W (maskTerm m c Nr) b (rowf r))) (j + 1)) * nrm (tscore K V W (maskTerm m c Nr) b (rowf r)) (runmax (tscore K V W (maskTerm m c Nr) b (rowf r))) j) hμ
            (by rw [ha, il r, ← EReal.coe_mul]), score_eq, nrm_succ])
      (nrm_pos _ _ _).ne'

/-- After the fourth tile the stored quotient is the attention output. -/
theorem last (hR : ArgsReal m c K V W Nr) (t : Fin cfg0.N) (b : Fin 16) (rowf : Fin 1024 → Fin 2048)
    (hb : b.val = t.val / 8) (h3 : t.val % 4 = 3) (ih : Holds m c K V W Nr (prev m c t) b rowf 2) (u : Fin 1) (r e : Fin 1024) :
    (outsAt0 m c t.val t.isLt).1 (ix3 u r e) = ((attn K V W (maskTerm m c Nr) b (rowf r) e : ℝ) : EReal) :=
  (last_quot m c K V W Nr hR t b rowf 2 hb h3 h3 ih u r e).trans (congrArg _ (stream_attn K V W (maskTerm m c Nr) b (rowf r) e))

end Cert.KernelIdeal.Attention
end
-- ==== Proof.KernelFinal.lean ====
/-
  The kernel's run, read: its result array ends holding the attention output at every index.

  Only the fourth grid point of each query tile writes its output block back; at that point the three points before
  it have carried the streaming state from the reset (`first`, `mid`, `mid`), so the stored block is the attention
  output of the tile's rows (`last`).  The blocks written back — one per batch and query tile — tile the array.
-/
import proofs.«155391_j3633542333230_2_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.Attention

open Cert.KernelIdeal Cert.KernelIdeal.Gen Cert.Softmax Cert.Attn Cert.KernelIdeal.Tile Cert.KernelIdeal.Steps

variable (m : (ℓ : Loc nD τ sig) → Buf (Elt Ideal) ℓ) (ρ : Dev nD → PrngReg) (c : Dev nD)
variable (K V : Fin 16 → Fin 2048 → Fin 1024 → ℝ) (W : Fin 1024 → Fin 1024 → ℝ) (Nr : ℝ)

/-- The attention output as an array over the extended reals. -/
def result (E : Fin 16 → Fin 2048 → ℝ) : S16x2048x1024.Idx → EReal :=
  fun i => ((attn K V W E ⟨(i 0).val, (i 0).isLt⟩ ⟨(i 1).val, (i 1).isLt⟩ ⟨(i 2).val, (i 2).isLt⟩ : ℝ) : EReal)

theorem result_ix3 (E : Fin 16 → Fin 2048 → ℝ) (b : Fin 16) (k : Fin 2048) (e : Fin 1024) :
    result K V W E (ix3 b k e) = ((attn K V W E b k e : ℝ) : EReal) := rfl

/-- What the point before `t` left is what point `t'` left, when `t'` is that point. -/
theorem prev_eq (t t' : Fin cfg0.N) (h : t'.val = t.val - 1) : prev m c t = outsAt0 m c t'.val t'.isLt := by
  obtain ⟨n', hn'⟩ := t'
  dsimp only at h
  subst h
  rfl

/-- At the fourth point of a query tile the output block holds the attention output of the tile's rows. -/
theorem out_last (hR : ArgsReal m c K V W Nr) (t : Fin cfg0.N) (h3 : t.val % 4 = 3) (u : Fin 1) (r e : Fin 1024) :
    (outsAt0 m c t.val t.isLt).1 (ix3 u r e)
      = ((attn K V W (maskTerm m c Nr) (batchOf t.val (lt128 t.isLt)) (rowOf t.val r) e : ℝ) : EReal) := by
  have hN := lt128 t.isLt
  have hlt : ∀ k, t.val - k < cfg0.N := fun k => lt_of_le_of_lt (Nat.sub_le _ _) t.isLt
  have hb : ∀ k, k ≤ 3 → (batchOf t.val hN).val = (t.val - k) / 8 := fun k hk => by
    show t.val / 8 = (t.val - k) / 8; omega
  have hrow : ∀ k, k ≤ 3 → ∀ r : Fin 1024, (rowOf t.val r).val = 1024 * (((t.val - k) / 4) % 2) + r.val := fun k hk r => by
    show 1024 * ((t.val / 4) % 2) + r.val = 1024 * (((t.val - k) / 4) % 2) + r.val; omega
  have H0 : Holds m c K V W Nr (outsAt0 m c (t.val - 3) (hlt 3)) (batchOf t.val hN) (rowOf t.val) 0 :=
    first m c K V W Nr hR ⟨t.val - 3, hlt 3⟩ _ _ (hb 3 le_rfl) (hrow 3 le_rfl) (by show (t.val - 3) % 4 = 0; omega)
  have H1 : Holds m c K V W Nr (outsAt0 m c (t.val - 2) (hlt 2)) (batchOf t.val hN) (rowOf t.val) 1 :=
    mid m c K V W Nr hR ⟨t.val - 2, hlt 2⟩ _ _ 0 (hb 2 (by omega)) (by show (t.val - 2) % 4 = 0 + 1; omega)
      (by show ¬(t.val - 2) % 4 = 3; omega)
      (by rw [prev_eq m c ⟨t.val - 2, hlt 2⟩ ⟨t.val - 3, hlt 3⟩ (by show t.val - 3 = t.val - 2 - 1; omega)]; exact H0)
  have H2 : Holds m c K V W Nr (outsAt0 m c (t.val - 1) (hlt 1)) (batchOf t.val hN) (rowOf t.val) 2 :=
    mid m c K V W Nr hR ⟨t.val - 1, hlt 1⟩ _ _ 1 (hb 1 (by omega)) (by show (t.val - 1) % 4 = 1 + 1; omega)
      (by show ¬(t.val - 1) % 4 = 3; omega)
      (by rw [prev_eq m c ⟨t.val - 1, hlt 1⟩ ⟨t.val - 2, hlt 2⟩ (by show t.val - 2 = t.val - 1 - 1; omega)]; exact H1)
  exact last m c K V W Nr hR t _ _ (hb 0 (by omega)) h3 H2 u r e

/-- An index of the array is in point `t`'s output block iff each coordinate is in the block's range on its axis. -/
theorem mem_blk (t : Fin cfg0.N) (i : S16x2048x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v5).slice (win0_4.rect t)).set ↔ _
  rw [View.set_slice_whole, Rect.mem_set_unit]
  exact Iff.rfl

/-- What a flushing point writes back is its block of the attention output. -/
theorem flushed_eq (hR : ArgsReal m c K V W Nr) (t : Fin cfg0.N) (hf : (cfg0.win 4).flush t = true) :
    (dats m 0 c).flushed 4 t = ((cfg0.win 4).blk t).view.read (Elt Ideal) (result K V W (maskTerm m c Nr)) := by
  have h3 : t.val % 4 = 3 := (flush0_4 t).mp hf
  have hx := Blocks.idx_facts t
  rw [Value.flushed4]
  funext y
  obtain ⟨u, r, e, rfl⟩ : ∃ (u : Fin 1) (r e : Fin 1024), y = ix3 u r e := ⟨y 0, y 1, y 2, eq_ix3 y⟩
  rw [View.read_apply]
  show (outsAt0 m c t.val t.isLt).1 (ix3 u r e) = result K V W (maskTerm m c Nr) (((cfg0.win 4).blk t).view.emb (ix3 u r e))
  have e4 : ((cfg0.win 4).blk t).view.emb (ix3 u r e) = ix3 (batchOf t.val (lt128 t.isLt)) (rowOf t.val r) e :=
    funext fun a => Fin.ext (by
      match a with
      | ⟨0, _⟩ => show win0_4.index t 0 * 1 + 1 * u.val = t.val / 8; rw [hx.2.2.2.2.2.2.2.2.2.2.2.1]; omega
      | ⟨1, _⟩ => show win0_4.index t 1 * 1024 + 1 * r.val = 1024 * ((t.val / 4) % 2) + r.val; rw [hx.2.2.2.2.2.2.2.2.2.2.2.2.1]; omega
      | ⟨2, _⟩ => show win0_4.index t 2 * 1024 + 1 * e.val = e.val; rw [hx.2.2.2.2.2.2.2.2.2.2.2.2.2]; omega)
  rw [e4, result_ix3]
  exact out_last m c K V W Nr hR t h3 u r e

/-- The result array after the run: the attention output. -/
theorem final (hR : ArgsReal m c K V W Nr) : (dats m 0 c).arrAt 4 cfg0.N = result K V W (maskTerm m c Nr) :=
  (dats m 0 c).arrAt_eq_of_cover 4 (result K V W (maskTerm m c Nr)) (fun t hf => flushed_eq m c K V W Nr hR t hf) fun i => by
    have h0 : (i 0).val < 16 := (i 0).isLt
    have h1 : (i 1).val < 2048 := (i 1).isLt
    have h2 : (i 2).val < 1024 := (i 2).isLt
    have hn : (i 0).val * 8 + ((i 1).val / 1024) * 4 + 3 < cfg0.N := by
      rw [show cfg0.N = 128 from N_0]; omega
    refine ⟨⟨(i 0).val * 8 + ((i 1).val / 1024) * 4 + 3, hn⟩, (flush0_4 _).mpr (by show ((i 0).val * 8 + ((i 1).val / 1024) * 4 + 3) % 4 = 3; omega), ?_⟩
    have hx := Blocks.idx_facts ⟨(i 0).val * 8 + ((i 1).val / 1024) * 4 + 3, hn⟩
    rw [mem_blk]
    intro a
    match a with
    | ⟨0, _⟩ =>
      show win0_4.index ⟨_, hn⟩ 0 * 1 ≤ (i 0).val ∧ (i 0).val < win0_4.index ⟨_, hn⟩ 0 * 1 + 1
      rw [hx.2.2.2.2.2.2.2.2.2.2.2.1]
      show ((i 0).val * 8 + ((i 1).val / 1024) * 4 + 3) / 8 * 1 ≤ (i 0).val ∧ (i 0).val < ((i 0).val * 8 + ((i 1).val / 1024) * 4 + 3) / 8 * 1 + 1
      omega
    | ⟨1, _⟩ =>
      show win0_4.index ⟨_, hn⟩ 1 * 1024 ≤ (i 1).val ∧ (i 1).val < win0_4.index ⟨_, hn⟩ 1 * 1024 + 1024
      rw [hx.2.2.2.2.2.2.2.2.2.2.2.2.1]
      show (((i 0).val * 8 + ((i 1).val / 1024) * 4 + 3) / 4) % 2 * 1024 ≤ (i 1).val ∧ (i 1).val < (((i 0).val * 8 + ((i 1).val / 1024) * 4 + 3) / 4) % 2 * 1024 + 1024
      omega
    | ⟨2, _⟩ =>
      show win0_4.index ⟨_, hn⟩ 2 * 1024 ≤ (i 2).val ∧ (i 2).val < win0_4.index ⟨_, hn⟩ 2 * 1024 + 1024
      rw [hx.2.2.2.2.2.2.2.2.2.2.2.2.2]
      omega

/-- The kernel's run: the result array at the attention output, the arguments unchanged. -/
theorem run (Kd Vd : Dev nD → Fin 16 → Fin 2048 → Fin 1024 → ℝ) (Wd : Dev nD → Fin 1024 → Fin 1024 → ℝ)
    (hR : ∀ c, ArgsReal m c (Kd c) (Vd c) (Wd c) Nr) :
    θ_run defs (onTc (τ := τ) (main (F := Ideal))) ⟨m, fun _ => 0, ρ⟩ fun r => ∀ c : Dev nD,
      r.2.mem ((c : Thread nD τ).loc main_v5) = result (Kd c) (Vd c) (Wd c) (maskTerm m c Nr)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (Kd c) (Vd c) (Wd c) Nr (hR c)), (h c).2⟩) (Value.run_blocks m ρ)

end Cert.KernelIdeal.Attention
end
-- ==== Proof.RefValue.lean ====
/-
  The reference's result, read entry by entry: with real keys, values and weight and real mask terms, its result at
  `(b, k, e)` is the attention output of query row `k` of batch `b` at column `e` — the projection, the scores plus
  the mask term, the row maximum (a maximum taken from `-∞`), the exponentials, their sum, the quotient, and the
  product with the values, each stage the reading of the corresponding real quantity.
-/
import proofs.«155391_j3633542333230_2_alg».proof.Proof.Gen.ReferenceIdeal.Read
import proofs.«155391_j3633542333230_2_alg».proof.Proof.AttnSpec
import Idealize.ShloMosaic.Lib.ValueIdx
import Idealize.ShloMosaic.PureOps.Ideal.Laws

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.Softmax Cert.Attn

variable (x0 : (⟨S16x2048x1024, .f32⟩ : BufTy).Contents (Elt Ideal)) (x1 : (⟨S16x2048, .i32⟩ : BufTy).Contents (Elt Ideal))
  (x2 : (⟨S16x2048x1024, .f32⟩ : BufTy).Contents (Elt Ideal)) (x3 : (⟨S1024x1024, .f32⟩ : BufTy).Contents (Elt Ideal))
variable (K V : Fin 16 → Fin 2048 → Fin 1024 → ℝ) (W : Fin 1024 → Fin 1024 → ℝ) (E : Fin 16 → Fin 2048 → ℝ)

/-- The float arguments are readings of reals, and so is each key's mask term. -/
structure ArgsReal : Prop where
  hK : ∀ b k d, x2 (ix3 b k d) = ((K b k d : ℝ) : EReal)
  hV : ∀ b n e, x0 (ix3 b n e) = ((V b n e : ℝ) : EReal)
  hW : ∀ e d, x3 (ix2 e d) = ((W e d : ℝ) : EReal)
  hE : ∀ b n, (((1#32 - x1 (ix2 b n)).toInt : ℝ) : EReal) * Ideal.ofBits .f32 0xF149F2CA#32 = ((E b n : ℝ) : EReal)

variable {x0 x1 x2 x3 K V W E}

theorem bot_eq : Ideal.ofBits .f32 0xFF800000#32 = ⊥ := by simp [Ideal.ofBits, Ideal.ieee]

theorem proj_val (h : ArgsReal x0 x1 x2 x3 K V W E) (b : Fin 16) (k : Fin 2048) (e : Fin 1024) :
    val_main_v0 (F := Ideal) x2 x3 (ix3 b k e) = ((proj K W b k e : ℝ) : EReal) := by
  rw [val_main_v0_apply, proj, Softmax.coe_sum]
  refine Finset.sum_congr rfl fun d _ => ?_
  rw [show lidx_main_v0 (ix3 b k e) d = ix3 b k d from funext fun a => Fin.ext (by match a with | ⟨0, _⟩ => rfl | ⟨1, _⟩ => rfl | ⟨2, _⟩ => rfl), show ridx_main_v0 (ix3 b k e) d = ix2 e d from funext fun a => Fin.ext (by match a with | ⟨0, _⟩ => rfl | ⟨1, _⟩ => rfl),
    h.hK, h.hW, EReal.coe_mul]

theorem mask_val (h : ArgsReal x0 x1 x2 x3 K V W E) (b : Fin 16) (k n : Fin 2048) :
    val_main_v8 (F := Ideal) x1 (ix3 b k n) = ((E b n : ℝ) : EReal) := by
  rw [val_main_v8_apply, val_main_v7_apply, val_main_v6_apply, val_main_v4_apply, val_main_v3_apply, val_main_v2_apply,
    val_main_c_apply, val_main_v5_apply, val_main_cst_apply,
    show idx_main_v7 (idx_main_v8 (ix3 b k n)) = ix2 b n from funext fun a => Fin.ext (by match a with | ⟨0, _⟩ => rfl | ⟨1, _⟩ => rfl)]
  exact h.hE b n

theorem logit_val (h : ArgsReal x0 x1 x2 x3 K V W E) (b : Fin 16) (k n : Fin 2048) :
    val_main_v9 (F := Ideal) x0 x1 x2 x3 (ix3 b k n) = ((logit K V W E b k n : ℝ) : EReal) := by
  rw [val_main_v9_apply, mask_val h, val_main_v1_apply, logit, EReal.coe_add, Softmax.coe_sum]
  refine congrArg₂ (· + ·) (Finset.sum_congr rfl fun e _ => ?_) rfl
  rw [show lidx_main_v1 (ix3 b k n) e = ix3 b k e from funext fun a => Fin.ext (by match a with | ⟨0, _⟩ => rfl | ⟨1, _⟩ => rfl | ⟨2, _⟩ => rfl), show ridx_main_v1 (ix3 b k n) e = ix3 b n e from funext fun a => Fin.ext (by match a with | ⟨0, _⟩ => rfl | ⟨1, _⟩ => rfl | ⟨2, _⟩ => rfl),
    proj_val h, h.hV, EReal.coe_mul]

/-- The row maximum: the host's maximum reduction from `-∞` over the 2048 keys. -/
theorem max_val (h : ArgsReal x0 x1 x2 x3 K V W E) (b : Fin 16) (k : Fin 2048) :
    val_main_v12 (F := Ideal) x0 x1 x2 x3 (ix2 b k) = ((rowmax (logit K V W E b k) : ℝ) : EReal) := by
  rw [val_main_v12_apply, val_main_v11_apply, val_main_cst_1_apply]
  show max (Ideal.ofBits .f32 0xFF800000#32) (val_main_v10 (F := Ideal) x0 x1 x2 x3 (ix2 b k)) = _
  rw [bot_eq, max_eq_right bot_le]
  unfold val_main_v10
  rw [Host.reduce_eq_fold_single FloatOps.maximumf _ _ reducesTo_S16x2048x2048_S16x2048_d2 (by decide) h_S_]
  refine (Finset.fold_congr (g := fun n : Fin 2048 => ((logit K V W E b k n : ℝ) : EReal)) fun n _ => ?_).trans ?_
  · show val_main_v9 (F := Ideal) x0 x1 x2 x3 _ = _
    rw [show Shape.Reduces.lift (by decide : S16x2048x2048.Reduces [2] S16x2048) (ix2 b k) n = ix3 b k ⟨n.val, n.isLt⟩ from funext fun a => Fin.ext (by match a with | ⟨0, _⟩ => rfl | ⟨1, _⟩ => rfl | ⟨2, _⟩ => rfl)]
    exact logit_val h b k _
  · show (Finset.univ : Finset (Fin 2048)).fold max (Ideal.ofBits .f32 0xFF800000#32) _ = _
    rw [bot_eq]
    exact fold_max_bot_coe _

theorem exp_val (h : ArgsReal x0 x1 x2 x3 K V W E) (b : Fin 16) (k n : Fin 2048) :
    val_main_v16 (F := Ideal) x0 x1 x2 x3 (ix3 b k n)
      = ((Real.exp (logit K V W E b k n - rowmax (logit K V W E b k)) : ℝ) : EReal) := by
  rw [val_main_v16_apply, val_main_v15_apply, logit_val h, val_main_v14_apply, val_main_v13_apply,
    show idx_main_v13 (idx_main_v14 (ix3 b k n)) = ix2 b k from funext fun a => Fin.ext (by match a with | ⟨0, _⟩ => rfl | ⟨1, _⟩ => rfl), max_val h]
  show Ideal.exp (((logit K V W E b k n : ℝ) : EReal) - ((rowmax (logit K V W E b k) : ℝ) : EReal)) = _
  rw [← EReal.coe_sub, Ideal.exp_coe]

theorem sum_val (h : ArgsReal x0 x1 x2 x3 K V W E) (b : Fin 16) (k : Fin 2048) :
    val_main_v17 (F := Ideal) x0 x1 x2 x3 (ix2 b k)
      = ((∑ n, Real.exp (logit K V W E b k n - rowmax (logit K V W E b k)) : ℝ) : EReal) := by
  rw [val_main_v17_apply, val_main_cst_2_apply]
  show Ideal.ofBits .f32 0x00000000#32 + _ = _
  rw [Ideal.ofBits_zero_f32, zero_add, Softmax.coe_sum]
  refine Finset.sum_congr rfl fun n _ => ?_
  rw [show idx_main_v17 (ix2 b k) n = ix3 b k n from funext fun a => Fin.ext (by match a with | ⟨0, _⟩ => rfl | ⟨1, _⟩ => rfl | ⟨2, _⟩ => rfl)]
  exact exp_val h b k n

theorem soft_val (h : ArgsReal x0 x1 x2 x3 K V W E) (b : Fin 16) (k n : Fin 2048) :
    val_main_v20 (F := Ideal) x0 x1 x2 x3 (ix3 b k n)
      = ((Real.exp (logit K V W E b k n - rowmax (logit K V W E b k))
          / ∑ n', Real.exp (logit K V W E b k n' - rowmax (logit K V W E b k)) : ℝ) : EReal) := by
  have hS : (∑ n', Real.exp (logit K V W E b k n' - rowmax (logit K V W E b k))) ≠ 0 :=
    (Finset.sum_pos (fun n' _ => Real.exp_pos _) Finset.univ_nonempty).ne'
  rw [val_main_v20_apply, exp_val h, val_main_v19_apply, val_main_v18_apply,
    show idx_main_v18 (idx_main_v19 (ix3 b k n)) = ix2 b k from funext fun a => Fin.ext (by match a with | ⟨0, _⟩ => rfl | ⟨1, _⟩ => rfl), sum_val h]
  show Ideal.div ((_ : ℝ) : EReal) ((_ : ℝ) : EReal) = _
  rw [Ideal.div_coe hS, ← EReal.coe_mul, mul_one_div]

/-- The reference's result at `(b, k, e)` is the attention output. -/
theorem result_val (h : ArgsReal x0 x1 x2 x3 K V W E) (b : Fin 16) (k : Fin 2048) (e : Fin 1024) :
    val_main_v21 (F := Ideal) x0 x1 x2 x3 (ix3 b k e) = ((attn K V W E b k e : ℝ) : EReal) := by
  rw [val_main_v21_apply, attn, Softmax.coe_sum]
  refine Finset.sum_congr rfl fun n _ => ?_
  rw [show lidx_main_v21 (ix3 b k e) n = ix3 b k n from funext fun a => Fin.ext (by match a with | ⟨0, _⟩ => rfl | ⟨1, _⟩ => rfl | ⟨2, _⟩ => rfl), show ridx_main_v21 (ix3 b k e) n = ix3 b n e from funext fun a => Fin.ext (by match a with | ⟨0, _⟩ => rfl | ⟨1, _⟩ => rfl | ⟨2, _⟩ => rfl),
    soft_val h, h.hV, EReal.coe_mul]

end Cert.ReferenceIdeal.RefValue
end
-- ==== Proof.Finite.lean ====
import proofs.«155391_j3633542333230_2_alg».proof.Pre_finite_inputs
import proofs.«155391_j3633542333230_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic Idealize.ShloMosaic.ValueIdx

/-!
  The precondition read at the extended reals: every entry of the three float arguments is a real number.  The
  predicate is three `all`s of `|x| < +∞` joined by `and`; an extended real whose absolute value `max x (-x)` is below
  `+∞` is neither infinity.
-/
namespace Cert.Finite

open Cert.Pre_finite_inputs

instance : Subsingleton S_.Idx := ⟨fun a b => funext fun d => d.elim0⟩

/-- An extended real with `|x| < +∞` (as the comparison computes it) is neither `+∞` nor `-∞`. -/
theorem elt_finite (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨hlt.1.ne, fun hb => ?_⟩
  rw [hb] at hlt
  simp at hlt

/-- Where the precondition holds, the three float arguments have no infinite entry. -/
theorem finite_of_pre (a0 : FVec Ideal S16x2048x1024 .f32) (a1 : IVec S16x2048 32) (a2 : FVec Ideal S16x2048x1024 .f32)
    (a3 : FVec Ideal S1024x1024 .f32) (h : Cert.Pre_finite_inputs.fn (F := Ideal) a0 a1 a2 a3 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥) := by
  have h0 := congrFun h ix0
  dsimp only [Cert.Pre_finite_inputs.fn] at h0
  change IntOp.andi (IntOp.andi _ _) _ = 1#1 at h0
  obtain ⟨h01, hc⟩ := IntOp.andi_eq_one.mp h0
  obtain ⟨ha, hb⟩ := IntOp.andi_eq_one.mp h01
  exact ⟨fun i => elt_finite _ (Host.reduce_andi_all _ _ _ _ ix0 ha i),
    fun i => elt_finite _ (Host.reduce_andi_all _ _ _ _ ix0 hb i),
    fun i => elt_finite _ (Host.reduce_andi_all _ _ _ _ ix0 hc i)⟩

/-- The masking constant is a real number. -/
theorem neg_big_real : ∃ r : ℝ, Ideal.ofBits .f32 0xF149F2CA#32 = ((r : ℝ) : EReal) := by
  simp only [Ideal.ofBits, Ideal.ieee]
  rw [if_neg (by decide), if_neg (by decide)]
  exact ⟨_, rfl⟩

end Cert.Finite
end
-- ==== Proof.lean ====
/-
  The certificate: a fused attention kernel (a linear projection of the keys, scores against the values, a masked
  softmax computed in one streaming pass over four key/value tiles, and the weighted sum of the values) against the
  plain reference (the same projection and scores, a softmax with the row maximum subtracted, the weighted sum).

  Over the extended reals, with every float input finite, both results are, at batch `b`, query row `k` and column `e`,

      ∑ₙ (e^{xₙ - M} / ∑ₖ e^{xₖ - M}) · V[b, n, e],   xₙ = ∑ₑ' (∑_d K[b,k,d] · W[e',d]) · V[b,n,e'] + (1 - maskₙ) · c,

  `c` the (finite) masking constant both programs share.  The reference computes this directly.  The kernel carries a
  running maximum, normaliser and weighted sum across the tiles, rescaling by `e^{old max - new max}`; since
  `e^{a} · e^{x - b} = e^{x - (b - a)}` its quotient is the same softmax-weighted sum whatever maximum it carried, and
  finiteness of the inputs is what makes every quantity a real number, where these laws hold.  Changes of float
  format are the identity over the extended reals, and no operation of the kernel was rewritten for this reading.
-/
import proofs.«155391_j3633542333230_2_alg».proof.Defs
import proofs.«155391_j3633542333230_2_alg».proof.Proof.Gen.Kernel
import proofs.«155391_j3633542333230_2_alg».proof.Proof.Gen.Kernel.Frame
import proofs.«155391_j3633542333230_2_alg».proof.Proof.Gen.KernelIdeal
import proofs.«155391_j3633542333230_2_alg».proof.Proof.Gen.KernelIdeal.Frame
import proofs.«155391_j3633542333230_2_alg».proof.Proof.Gen.KernelIdeal.Value
import proofs.«155391_j3633542333230_2_alg».proof.Proof.Gen.ReferenceIdeal
import proofs.«155391_j3633542333230_2_alg».proof.Proof.Gen.ReferenceIdeal.Run
import proofs.«155391_j3633542333230_2_alg».proof.Proof.Gen.ReferenceIdeal.Read
import proofs.«155391_j3633542333230_2_alg».proof.Proof.Gen.Pre_finite_inputs
import proofs.«155391_j3633542333230_2_alg».proof.Proof.KernelFinal
import proofs.«155391_j3633542333230_2_alg».proof.Proof.RefValue
import proofs.«155391_j3633542333230_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on finite arguments, both programs end with the attention output as their result. -/
theorem algebraic : Cert.algebraic_KernelIdeal_ReferenceIdeal := by
  intro m ρ m' ρ' hpre hagree
  obtain ⟨Nr, hN⟩ := Cert.Finite.neg_big_real
  have hfin := fun c => Cert.Finite.finite_of_pre _ _ _ _ (hpre c)
  have hR : ∀ c : Dev Cert.KernelIdeal.nD, Cert.KernelIdeal.Attention.ArgsReal m c
      (fun b k d => (m ((c : Thread Cert.KernelIdeal.nD Cert.KernelIdeal.τ).loc Cert.KernelIdeal.main_arg2) (ix3 b k d)).toReal)
      (fun b n e => (m ((c : Thread Cert.KernelIdeal.nD Cert.KernelIdeal.τ).loc Cert.KernelIdeal.main_arg0) (ix3 b n e)).toReal)
      (fun e d => (m ((c : Thread Cert.KernelIdeal.nD Cert.KernelIdeal.τ).loc Cert.KernelIdeal.main_arg3) (ix2 e d)).toReal) Nr := fun c =>
    ⟨fun b k d => (EReal.coe_toReal ((hfin c).2.1 _).1 ((hfin c).2.1 _).2).symm,
     fun b n e => (EReal.coe_toReal ((hfin c).1 _).1 ((hfin c).1 _).2).symm,
     fun e d => (EReal.coe_toReal ((hfin c).2.2 _).1 ((hfin c).2.2 _).2).symm, hN⟩
  refine ⟨_, Cert.KernelIdeal.Attention.run m ρ Nr _ _ _ hR, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _ _).trans ?_
  rw [(hagree c).1, (hagree c).2.1, (hagree c).2.2.1, (hagree c).2.2.2]
  funext i
  obtain ⟨b, k, e, rfl⟩ : ∃ (b : Fin 16) (k : Fin 2048) (e : Fin 1024), i = ix3 b k e := ⟨i 0, i 1, i 2, eq_ix3 i⟩
  exact Cert.ReferenceIdeal.RefValue.result_val
    ⟨(hR c).hK, (hR c).hV, (hR c).hW, fun b n => by rw [hN, ← EReal.coe_mul]; rfl⟩ b k e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
